-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S5000x128 : Shape := ⟨2, ![5000, 128]⟩
abbrev S1x128 : Shape := ⟨2, ![1, 128]⟩
abbrev S100000x64 : Shape := ⟨2, ![100000, 64]⟩
abbrev S5000x64 : Shape := ⟨2, ![5000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 58
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S100000, .f32⟩
  | .hbm, ⟨82, _⟩ => ⟨S100000x1, .f32⟩
  | .hbm, ⟨83, _⟩ => ⟨S100000x1, .f32⟩
  | .hbm, ⟨84, _⟩ => ⟨S100000x64, .f32⟩
  | .hbm, ⟨85, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_call1_cst_0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_cst_1 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_v51 : Ref sig .tc := ⟨.hbm, 85, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000x1_S100000x64_0_1 : S100000x1.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its RESULT NAMED.

  @main is four segments: the host operations that build the first layer's mean-aggregated features, the first
  dense layer (a grid of 20 row blocks of 5000 rows), the host operations that aggregate the first layer's output,
  and the second dense layer with its row-wise log-softmax (again 20 row blocks). The contents of every unscoped
  buffer at the four segment boundaries are a fold from the launch memory: `W1` after the first host stretch,
  `W2` after the first grid (its output array holding what the 20 write-backs leave), `W3` after the second
  host stretch, `W4` after the second grid.

  The frame of this program reads the final state only at the eight argument arrays. Here the same launch over the
  same segments is read at ONE more buffer, the result `main_v39`: every weakly fair execution terminates, nothing
  faults, the result array holds the last boundary's contents `W4` at `main_v39`, and the arguments are as
  launched. What `W4` holds there — the second layer's function of the arguments — is the business of the
  modules that import this one.
-/
import proofs.«132819_j73521250173079_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the last segment
    boundary's contents, and each argument array ends as launched. The final thread state holds every unscoped
    buffer at `W4`; reading it against the final memory gives the result buffer by name and each argument through
    the fold back to the launch memory. -/
theorem run_named : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.Spec.lean ====
/-
  THE SPECIFICATION: a two-layer mean-aggregating graph network as ONE function of its eight arguments.

  The arguments are the node features `x` (100000 nodes × 128), the edge list (row 0 the sources, row 1 the
  destinations, 1600000 edges), and per layer two weight matrices and a bias. With `deg v` the number of edges into
  `v` and `g v = 1 / max (deg v) 1`, the mean aggregation of a feature array `h` is

      agg h v j = (sum over the edges e with destination v of h (source e) j) · g v

  where a negative source index is first shifted up by the node count, as array indexing does. The two layers are

      hidden  = max (agg x · Wl1 + x · Wr1 + b1) 0
      logits  = agg hidden · Wl2 + hidden · Wr2 + b2
      result  = z - log (sum_j exp z),   z = logits - max_j logits      (row by row)

  Everything here is spelt with the host's own array operations, so that a straight-line host program computing
  these stages does so literally; the gather and the scatter-add are never opened — both programs of the
  certificate apply them to the same operands. The matrix products, the row maximum and the row sum are read at an
  index in the modules that import this one.
-/
import proofs.«132819_j73521250173079_1_alg».proof.Proof.Gen.ReferenceIdeal
import Idealize.ShloMosaic.PureOps.Ideal

noncomputable section

namespace Cert.Sage

open Cert.ReferenceIdeal Cert.ReferenceIdeal.Gen Idealize.ShloMosaic Idealize.ShloMosaic.TcCoe Idealize.SL.Sem

abbrev Feat (F : FTy → Type) : Type := (⟨S100000x128, .f32⟩ : BufTy).Contents (Elt F)
abbrev Edges (F : FTy → Type) : Type := (⟨S2x1600000, .i32⟩ : BufTy).Contents (Elt F)
abbrev Ids (F : FTy → Type) : Type := (⟨S1600000, .i32⟩ : BufTy).Contents (Elt F)
abbrev PerNode (F : FTy → Type) : Type := (⟨S100000, .f32⟩ : BufTy).Contents (Elt F)
abbrev W128 (F : FTy → Type) : Type := (⟨S128x128, .f32⟩ : BufTy).Contents (Elt F)
abbrev B128 (F : FTy → Type) : Type := (⟨S128, .f32⟩ : BufTy).Contents (Elt F)
abbrev W64 (F : FTy → Type) : Type := (⟨S128x64, .f32⟩ : BufTy).Contents (Elt F)
abbrev B64 (F : FTy → Type) : Type := (⟨S64, .f32⟩ : BufTy).Contents (Elt F)
abbrev Out (F : FTy → Type) : Type := (⟨S100000x64, .f32⟩ : BufTy).Contents (Elt F)

variable {F : FTy → Type} [FloatOps F]

/-- The edges' sources: row 0 of the edge list, as a vector. -/
def srcOf (e : Edges F) : Ids F :=
  shapeCast S1600000 (extractStridedSlice S1x1600000 ![0, 0] e slices_S2x1600000_S1x1600000_0_0) shapeCasts_S1x1600000_S1600000

/-- The edges' destinations: row 1 of the edge list, as a vector. -/
def dstOf (e : Edges F) : Ids F :=
  shapeCast S1600000 (extractStridedSlice S1x1600000 ![1, 0] e slices_S2x1600000_S1x1600000_1_0) shapeCasts_S1x1600000_S1600000

/-- `1 / max (deg v) 1` per node, the in-degree counted by scatter-adding a one per edge into zeros. -/
def invDegOf (d : Ids F) : PerNode F :=
  Host.divf (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 d)
        (broadcastInDim S1600000 ![] bcast_S_S1600000 (constant S_ .f32 0x3F800000#32)))
      (broadcastInDim S100000 ![] bcast_S_S100000 (constant S_ .f32 0x3F800000#32)))

/-- The mean aggregation of `h` over the edges (sources `s`, destinations `d`) with the per-node factor `g`: gather the
    sources' rows (a negative index shifted up by the node count), scatter-add them at the destinations into zeros,
    scale each node's row by its factor. -/
def aggOf (h : Feat F) (s d : Ids F) (g : PerNode F) : Feat F :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d)
      (Host.gather gather_S100000x128_S1600000x1_S1600000x128_1_0_n_n_0_1_1128 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x128 ![0, 1] bcast_S100000x1_S100000x128_0_1 (broadcastInDim S100000x1 ![0] bcast_S100000_S100000x1_0 g))

/-- The first layer: `max (A · Wl + X · Wr + b) 0`, the bias added to every row. -/
def layer1 (A X : Feat F) (Wl Wr : W128 F) (b : B128 F) : Feat F :=
  maximumf
    (addf
      (addf (Host.dotGeneral dot_S100000x128_S128x128_S100000x128_1_0_0_1_n_n none A Wl)
        (Host.dotGeneral dot_S100000x128_S128x128_S100000x128_1_0_0_1_n_n none X Wr))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The second layer's logits: `A · Wl + H · Wr + b`. -/
def logitsOf (A H : Feat F) (Wl Wr : W64 F) (b : B64 F) : Out F :=
  addf
    (addf (Host.dotGeneral dot_S100000x128_S128x64_S100000x64_1_0_0_1_n_n none A Wl)
      (Host.dotGeneral dot_S100000x128_S128x64_S100000x64_1_0_0_1_n_n none H Wr))
    (broadcastInDim S100000x64 ![0, 1] bcast_S1x64_S100000x64_0_1 (broadcastInDim S1x64 ![1] bcast_S64_S1x64_1 b))

/-- Each row's maximum (the fold of `max` from `-∞` over the row, then once more against `-∞`), on every column. -/
def rowMaxOf (y : Out F) : Out F :=
  broadcastInDim S100000x64 ![0, 1] bcast_S100000x1_S100000x64_0_1
    (broadcastInDim S100000x1 ![0] bcast_S100000_S100000x1_0
      (maximumf (broadcastInDim S100000 ![] bcast_S_S100000 (constant S_ .f32 0xFF800000#32))
        (Host.reduce FloatOps.maximumf y (constant S_ .f32 0xFF800000#32) reducesTo_S100000x64_S100000_d1 h_S_)))

/-- A row minus its maximum. -/
def shiftedOf (y : Out F) : Out F := subf y (rowMaxOf y)

/-- The row-wise log-softmax: `z - log (sum_j exp z)` with `z` the row minus its maximum. -/
def logSoftmaxOf (y : Out F) : Out F :=
  subf (shiftedOf y)
    (broadcastInDim S100000x64 ![0, 1] bcast_S100000x1_S100000x64_0_1
      (Host.log
        (broadcastInDim S100000x1 ![0] bcast_S100000_S100000x1_0
          (Host.reduceAdd (Host.exp (shiftedOf y)) (constant S_ .f32 0x00000000#32) reducesTo_S100000x64_S100000_d1 h_S_))))

/-- The second layer: the log-softmax of its logits. -/
def layer2 (A H : Feat F) (Wl Wr : W64 F) (b : B64 F) : Out F := logSoftmaxOf (logitsOf A H Wl Wr b)

/-- The first layer's output from the arguments. -/
def hiddenOf (x : Feat F) (e : Edges F) (Wl1 Wr1 : W128 F) (b1 : B128 F) : Feat F :=
  layer1 (aggOf x (srcOf e) (dstOf e) (invDegOf (dstOf e))) x Wl1 Wr1 b1

/-- THE NETWORK: the result array as one function of the eight arguments. -/
def net (x : Feat F) (e : Edges F) (Wl1 Wr1 : W128 F) (b1 : B128 F) (Wl2 Wr2 : W64 F) (b2 : B64 F) : Out F :=
  layer2 (aggOf (hiddenOf x e Wl1 Wr1 b1) (srcOf e) (dstOf e) (invDegOf (dstOf e))) (hiddenOf x e Wl1 Wr1 b1) Wl2 Wr2 b2

end Cert.Sage

end
-- ==== Proof.HostGlue.lean ====
/-
  THE KERNEL'S HOST STRETCHES, read as the specification's stages.

  Before the first grid the kernel's @main runs 32 host operations: from ANY buffer contents they leave the edges'
  sources and destinations, the per-node factor `1 / max (deg v) 1`, and — in the buffer the first grid reads as its
  first operand — the mean aggregation of the node features. Between the two grids it runs 16 more: from any
  contents they leave, in the buffer the second grid reads as its first operand, the mean aggregation of what the
  first grid's output buffer holds, over the sources, destinations and factors the three small buffers hold. Neither
  stretch writes an argument array or the first grid's output. The gather, the scatter-add and the host's division stay
  folded: the same operations, on the same operands, as the specification applies.
-/
import proofs.«132819_j73521250173079_1_alg».proof.Proof.Spec
import proofs.«132819_j73521250173079_1_alg».proof.Proof.Gen.KernelIdeal.Launch
import Idealize.ShloMosaic.Lib.StableHlo.Run

noncomputable section

namespace Cert.KernelIdeal.HostGlue

open Cert.KernelIdeal Cert.KernelIdeal.Gen Idealize.ShloMosaic Idealize.ShloMosaic.TcCoe Idealize.SL.Sem Idealize.ShloMosaic.StableHlo

variable {F : FTy → Type} [FloatOps F]

attribute [local irreducible] Host.gather Host.scatterAdd Host.divf

/-! ## The 32 operations before the first grid -/

set_option maxRecDepth 16384 in
/-- The first grid's first operand: the mean aggregation of the node features over the edge list. -/
theorem stretch0_agg (W : Valuation τ sig (Elt F)) :
    after hostOps0 W (Proc.devRef .tc main_v24)
      = Cert.Sage.aggOf (W (Proc.devRef .tc main_arg0)) (Cert.Sage.srcOf (W (Proc.devRef .tc main_arg1))) (Cert.Sage.dstOf (W (Proc.devRef .tc main_arg1)))
          (Cert.Sage.invDegOf (Cert.Sage.dstOf (W (Proc.devRef .tc main_arg1)))) := by
  simp only [after_cons, after_nil]
  rfl

set_option maxRecDepth 16384 in
theorem stretch0_src (W : Valuation τ sig (Elt F)) :
    after hostOps0 W (Proc.devRef .tc main_v1) = Cert.Sage.srcOf (W (Proc.devRef .tc main_arg1)) := by
  simp only [after_cons, after_nil]
  rfl

set_option maxRecDepth 16384 in
theorem stretch0_dst (W : Valuation τ sig (Elt F)) :
    after hostOps0 W (Proc.devRef .tc main_v3) = Cert.Sage.dstOf (W (Proc.devRef .tc main_arg1)) := by
  simp only [after_cons, after_nil]
  rfl

set_option maxRecDepth 16384 in
theorem stretch0_invDeg (W : Valuation τ sig (Elt F)) :
    after hostOps0 W (Proc.devRef .tc main_v11) = Cert.Sage.invDegOf (Cert.Sage.dstOf (W (Proc.devRef .tc main_arg1))) := by
  simp only [after_cons, after_nil]
  rfl

set_option maxRecDepth 16384 in
theorem stretch0_arg0 (W : Valuation τ sig (Elt F)) : after hostOps0 W (Proc.devRef .tc main_arg0) = W (Proc.devRef .tc main_arg0) := by
  simp only [after_cons, after_nil]
  rfl
set_option maxRecDepth 16384 in
theorem stretch0_arg2 (W : Valuation τ sig (Elt F)) : after hostOps0 W (Proc.devRef .tc main_arg2) = W (Proc.devRef .tc main_arg2) := by
  simp only [after_cons, after_nil]
  rfl
set_option maxRecDepth 16384 in
theorem stretch0_arg3 (W : Valuation τ sig (Elt F)) : after hostOps0 W (Proc.devRef .tc main_arg3) = W (Proc.devRef .tc main_arg3) := by
  simp only [after_cons, after_nil]
  rfl
set_option maxRecDepth 16384 in
theorem stretch0_arg4 (W : Valuation τ sig (Elt F)) : after hostOps0 W (Proc.devRef .tc main_arg4) = W (Proc.devRef .tc main_arg4) := by
  simp only [after_cons, after_nil]
  rfl
set_option maxRecDepth 16384 in
theorem stretch0_arg5 (W : Valuation τ sig (Elt F)) : after hostOps0 W (Proc.devRef .tc main_arg5) = W (Proc.devRef .tc main_arg5) := by
  simp only [after_cons, after_nil]
  rfl
set_option maxRecDepth 16384 in
theorem stretch0_arg6 (W : Valuation τ sig (Elt F)) : after hostOps0 W (Proc.devRef .tc main_arg6) = W (Proc.devRef .tc main_arg6) := by
  simp only [after_cons, after_nil]
  rfl
set_option maxRecDepth 16384 in
theorem stretch0_arg7 (W : Valuation τ sig (Elt F)) : after hostOps0 W (Proc.devRef .tc main_arg7) = W (Proc.devRef .tc main_arg7) := by
  simp only [after_cons, after_nil]
  rfl

/-! ## The 16 operations between the grids -/

set_option maxRecDepth 16384 in
/-- The second grid's first operand: the mean aggregation of what the first grid's output buffer holds. -/
theorem stretch1_agg (W : Valuation τ sig (Elt F)) :
    after hostOps1 W (Proc.devRef .tc main_v38)
      = Cert.Sage.aggOf (W (Proc.devRef .tc main_v25)) (W (Proc.devRef .tc main_v1)) (W (Proc.devRef .tc main_v3)) (W (Proc.devRef .tc main_v11)) := by
  simp only [after_cons, after_nil]
  rfl

set_option maxRecDepth 16384 in
theorem stretch1_v25 (W : Valuation τ sig (Elt F)) : after hostOps1 W (Proc.devRef .tc main_v25) = W (Proc.devRef .tc main_v25) := by
  simp only [after_cons, after_nil]
  rfl
set_option maxRecDepth 16384 in
theorem stretch1_arg5 (W : Valuation τ sig (Elt F)) : after hostOps1 W (Proc.devRef .tc main_arg5) = W (Proc.devRef .tc main_arg5) := by
  simp only [after_cons, after_nil]
  rfl
set_option maxRecDepth 16384 in
theorem stretch1_arg6 (W : Valuation τ sig (Elt F)) : after hostOps1 W (Proc.devRef .tc main_arg6) = W (Proc.devRef .tc main_arg6) := by
  simp only [after_cons, after_nil]
  rfl
set_option maxRecDepth 16384 in
theorem stretch1_arg7 (W : Valuation τ sig (Elt F)) : after hostOps1 W (Proc.devRef .tc main_arg7) = W (Proc.devRef .tc main_arg7) := by
  simp only [after_cons, after_nil]
  rfl

end Cert.KernelIdeal.HostGlue

end
-- ==== Proof.SpecRead.lean ====
/-
  THE SPECIFICATION READ AT AN INDEX, at the extended reals.

  Row by row both layers are two small functions of finitely many extended reals.
    * `affine2 a x wl wr b = (sum_k a k · wl k + sum_k x k · wr k) + b` over `k < 128`: one entry of
      `A · Wl + X · Wr + b`, from row `r` of `A` and `X` and column `j` of `Wl` and `Wr`.
    * `logSoftmaxRow f j = (f j - M) - log (sum_j' exp (f j' - M))`, `M` the fold of `max` from `-∞` over the 64
      entries of the row `f`: one entry of the row-wise log-softmax.
  The host's matrix product at an entry is the plain sum of products, its one-axis reductions are a fold of `max` and a
  sum from their initial values, and a maximum against `-∞` changes nothing. No algebra beyond `-∞ ⊔ x = x` and
  `0 + s = s` enters: the kernel computes the same entries by the same formulas.
-/
import proofs.«132819_j73521250173079_1_alg».proof.Proof.Spec
import Idealize.ShloMosaic.PureOps.Ideal.Laws
import Idealize.ShloMosaic.Lib.ValueIdx
import Idealize.ShloMosaic.Lib.Pipeline.Value

noncomputable section

namespace Cert.Sage

open Cert.ReferenceIdeal Cert.ReferenceIdeal.Gen Idealize.ShloMosaic Idealize.ShloMosaic.TcCoe Idealize.SL.Sem

/-! ## The two row functions -/

/-- One entry of `A · Wl + X · Wr + b`: a row of `A`, a row of `X`, a column of each weight, one bias entry. -/
def affine2 (a x wl wr : Fin 128 → EReal) (b : EReal) : EReal := ((∑ k : Fin 128, a k * wl k) + (∑ k : Fin 128, x k * wr k)) + b

/-- A row's maximum: the fold of `max` from `-∞` (the f32 pattern of `-∞`) over its 64 entries. -/
def rowMax (f : Fin 64 → EReal) : EReal := (Finset.univ : Finset (Fin 64)).fold max (Ideal.ofBits .f32 0xFF800000#32) f

/-- One entry of a row's log-softmax. -/
def logSoftmaxRow (f : Fin 64 → EReal) (j : Fin 64) : EReal :=
  (f j - rowMax f) - Ideal.log (∑ j' : Fin 64, Ideal.exp (f j' - rowMax f))

/-- A maximum against `-∞` is the other operand. -/
theorem negInf_max (x : EReal) : max (Ideal.ofBits .f32 0xFF800000#32) x = x := by
  simp [Ideal.ofBits, Ideal.ieee]

/-! ## Indices of the whole arrays -/

abbrev rowK (i : S100000x128.Idx) (k : Fin 128) : S100000x128.Idx := fun a => match a with
  | ⟨0, _⟩ => ⟨(i 0).val, (i 0).isLt⟩
  | ⟨1, _⟩ => ⟨k.val, k.isLt⟩
abbrev kCol (i : S100000x128.Idx) (k : Fin 128) : S128x128.Idx := fun a => match a with
  | ⟨0, _⟩ => ⟨k.val, k.isLt⟩
  | ⟨1, _⟩ => ⟨(i 1).val, (i 1).isLt⟩
abbrev colOf (i : S100000x128.Idx) : S128.Idx := fun a => match a with
  | ⟨0, _⟩ => ⟨(i 1).val, (i 1).isLt⟩
abbrev rowK' (i : S100000x64.Idx) (k : Fin 128) : S100000x128.Idx := fun a => match a with
  | ⟨0, _⟩ => ⟨(i 0).val, (i 0).isLt⟩
  | ⟨1, _⟩ => ⟨k.val, k.isLt⟩
abbrev kCol' (i : S100000x64.Idx) (k : Fin 128) : S128x64.Idx := fun a => match a with
  | ⟨0, _⟩ => ⟨k.val, k.isLt⟩
  | ⟨1, _⟩ => ⟨(i 1).val, (i 1).isLt⟩
abbrev colOf' (i : S100000x64.Idx) : S64.Idx := fun a => match a with
  | ⟨0, _⟩ => ⟨(i 1).val, (i 1).isLt⟩
abbrev rowOf' (i : S100000x64.Idx) : S100000.Idx := fun a => match a with
  | ⟨0, _⟩ => ⟨(i 0).val, (i 0).isLt⟩
abbrev rowJ (r : S100000.Idx) (j : Fin 64) : S100000x64.Idx := fun a => match a with
  | ⟨0, _⟩ => ⟨(r 0).val, (r 0).isLt⟩
  | ⟨1, _⟩ => ⟨j.val, j.isLt⟩
abbrev colJ (i : S100000x64.Idx) : Fin 64 := ⟨(i 1).val, (i 1).isLt⟩

theorem rowJ_self (i : S100000x64.Idx) : rowJ (rowOf' i) (colJ i) = i :=
  funext fun a => Fin.ext (by match a with | ⟨0, _⟩ => rfl | ⟨1, _⟩ => rfl)
theorem rowOf'_rowJ (r : S100000.Idx) (j : Fin 64) : rowOf' (rowJ r j) = r :=
  funext fun a => Fin.ext (by match a with | ⟨0, _⟩ => rfl)

/-! ## The host's matrix products at an entry -/

theorem lhs0_D128 (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs1_D128 (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
theorem rhs0_D128 (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
theorem rhs1_D128 (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
/-- The contraction over the record's one contracted axis is the sum over `k < 128` of the left operand at (row, k) times
    the right operand at (k, column). -/
theorem sum_D128 (l : (⟨S100000x128, .f32⟩ : BufTy).Contents (Elt Ideal)) (r : (⟨S128x128, .f32⟩ : BufTy).Contents (Elt Ideal)) (i : S100000x128.Idx) :
    ∑ q : dot_S100000x128_S128x128_S100000x128_1_0_0_1_n_n.contr.Idx, l (dot_S100000x128_S128x128_S100000x128_1_0_0_1_n_n.lhsIdx i q) * r (dot_S100000x128_S128x128_S100000x128_1_0_0_1_n_n.rhsIdx i q) = ∑ k : Fin 128, l (rowK i k) * r (kCol i k) := by
  rw [← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = rowK i k := funext fun a => Fin.ext (by
    match a with
    | ⟨0, _⟩ => exact lhs0_D128 _ _
    | ⟨1, _⟩ => exact (lhs1_D128 _ _).trans hk)
  have er : dot_S100000x128_S128x128_S100000x128_1_0_0_1_n_n.rhsIdx i ((ValueIdx.contrEquiv1 dot_S100000x128_S128x128_S100000x128_1_0_0_1_n_n 128 rfl rfl).symm k) = kCol i k := funext fun a => Fin.ext (by
    match a with
    | ⟨0, _⟩ => exact (rhs0_D128 _ _).trans hk
    | ⟨1, _⟩ => exact rhs1_D128 _ _)
  rw [el, er]

theorem lhs0_D64 (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem lhs1_D64 (i : S100000x64.Idx) (q : dot_S100000x128_S128x64_S100000x64_1_0_0_1_n_n.contr.Idx) : (dot_S100000x128_S128x64_S100000x64_1_0_0_1_n_n.lhsIdx i q 1).val = (q ⟨0, by decide⟩).val :=
  dot_S100000x128_S128x64_S100000x64_1_0_0_1_n_n.lhsIdx_val_of_single rfl i q
theorem rhs0_D64 (i : S100000x64.Idx) (q : dot_S100000x128_S128x64_S100000x64_1_0_0_1_n_n.contr.Idx) : (dot_S100000x128_S128x64_S100000x64_1_0_0_1_n_n.rhsIdx i q 0).val = (q ⟨0, by decide⟩).val :=
  dot_S100000x128_S128x64_S100000x64_1_0_0_1_n_n.rhsIdx_val_of_single rfl i q
theorem rhs1_D64 (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl
/-- The contraction over the record's one contracted axis is the sum over `k < 128` of the left operand at (row, k) times
    the right operand at (k, column). -/
theorem sum_D64 (l : (⟨S100000x128, .f32⟩ : BufTy).Contents (Elt Ideal)) (r : (⟨S128x64, .f32⟩ : BufTy).Contents (Elt Ideal)) (i : S100000x64.Idx) :
    ∑ q : dot_S100000x128_S128x64_S100000x64_1_0_0_1_n_n.contr.Idx, l (dot_S100000x128_S128x64_S100000x64_1_0_0_1_n_n.lhsIdx i q) * r (dot_S100000x128_S128x64_S100000x64_1_0_0_1_n_n.rhsIdx i q) = ∑ k : Fin 128, l (rowK' i k) * r (kCol' i k) := by
  rw [← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = rowK' i k := funext fun a => Fin.ext (by
    match a with
    | ⟨0, _⟩ => exact lhs0_D64 _ _
    | ⟨1, _⟩ => exact (lhs1_D64 _ _).trans hk)
  have er : dot_S100000x128_S128x64_S100000x64_1_0_0_1_n_n.rhsIdx i ((ValueIdx.contrEquiv1 dot_S100000x128_S128x64_S100000x64_1_0_0_1_n_n 128 rfl rfl).symm k) = kCol' i k := funext fun a => Fin.ext (by
    match a with
    | ⟨0, _⟩ => exact (rhs0_D64 _ _).trans hk
    | ⟨1, _⟩ => exact rhs1_D64 _ _)
  rw [el, er]

theorem dot128_apply (l : Feat Ideal) (r : W128 Ideal) (i : S100000x128.Idx) :
    Host.dotGeneral (F := Ideal) (φ₁ := .f32) (φ₂ := .f32) dot_S100000x128_S128x128_S100000x128_1_0_0_1_n_n none l r i = ∑ k : Fin 128, l (rowK i k) * r (kCol i k) := by
  simp only [Host.dotGeneral]
  rw [Ideal.dotGeneral_apply]
  exact sum_D128 l r i

theorem dot64_apply (l : Feat Ideal) (r : W64 Ideal) (i : S100000x64.Idx) :
    Host.dotGeneral (F := Ideal) (φ₁ := .f32) (φ₂ := .f32) dot_S100000x128_S128x64_S100000x64_1_0_0_1_n_n none l r i = ∑ k : Fin 128, l (rowK' i k) * r (kCol' i k) := by
  simp only [Host.dotGeneral]
  rw [Ideal.dotGeneral_apply]
  exact sum_D64 l r i

/-! ## The biases and the constants, broadcast -/

abbrev mid128 (i : S100000x128.Idx) : S1x128.Idx := fun a => match a with
  | ⟨0, _⟩ => ⟨0, Nat.one_pos⟩
  | ⟨1, _⟩ => ⟨(i 1).val, (i 1).isLt⟩
abbrev mid64 (i : S100000x64.Idx) : S1x64.Idx := fun a => match a with
  | ⟨0, _⟩ => ⟨0, Nat.one_pos⟩
  | ⟨1, _⟩ => ⟨(i 1).val, (i 1).isLt⟩
abbrev colUnit (i : S100000x64.Idx) : S100000x1.Idx := fun a => match a with
  | ⟨0, _⟩ => ⟨(i 0).val, (i 0).isLt⟩
  | ⟨1, _⟩ => ⟨0, Nat.one_pos⟩

theorem bias128_apply (b : B128 Ideal) (i : S100000x128.Idx) :
    broadcastInDim S100000x128 ![0, 1] bcast_S1x128_S100000x128_0_1 (broadcastInDim S1x128 ![1] bcast_S128_S1x128_1 b) i = b (colOf i) :=
  (broadcastInDim_apply _ bcast_S1x128_S100000x128_0_1 _ i (mid128 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans
  (broadcastInDim_apply _ bcast_S128_S1x128_1 b (mid128 i) (colOf i) (fun a => match a with
    | ⟨0, _⟩ => by show (i 1).val = if (128 : Nat) = 1 then 0 else (i 1).val; rw [if_neg (by decide)]))

theorem bias64_apply (b : B64 Ideal) (i : S100000x64.Idx) :
    broadcastInDim S100000x64 ![0, 1] bcast_S1x64_S100000x64_0_1 (broadcastInDim S1x64 ![1] bcast_S64_S1x64_1 b) i = b (colOf' i) :=
  (broadcastInDim_apply _ bcast_S1x64_S100000x64_0_1 _ i (mid64 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])).trans
  (broadcastInDim_apply _ bcast_S64_S1x64_1 b (mid64 i) (colOf' i) (fun a => match a with
    | ⟨0, _⟩ => by show (i 1).val = if (64 : Nat) = 1 then 0 else (i 1).val; rw [if_neg (by decide)]))

theorem splat128_apply (w : BitVec 32) (i : S100000x128.Idx) :
    broadcastInDim S100000x128 ![] bcast_S_S100000x128 (constant (F := Ideal) S_ .f32 w) i = Ideal.ofBits .f32 w :=
  broadcastInDim_apply _ bcast_S_S100000x128 _ i (fun a => a.elim0) (fun a => a.elim0)

theorem splatRows_apply (w : BitVec 32) (r : S100000.Idx) :
    broadcastInDim S100000 ![] bcast_S_S100000 (constant (F := Ideal) S_ .f32 w) r = Ideal.ofBits .f32 w :=
  broadcastInDim_apply _ bcast_S_S100000 _ r (fun a => a.elim0) (fun a => a.elim0)

abbrev rowOfU (u : S100000x1.Idx) : S100000.Idx := fun a => match a with
  | ⟨0, _⟩ => ⟨(u 0).val, (u 0).isLt⟩
theorem rowOfU_colUnit (i : S100000x64.Idx) : rowOfU (colUnit i) = rowOf' i :=
  funext fun a => Fin.ext (by match a with | ⟨0, _⟩ => rfl)

/-- A column of per-row values spread over the 64 columns, read at an entry: the column's value at the entry's row. -/
theorem bcCols_apply (v : (⟨S100000x1, .f32⟩ : BufTy).Contents (Elt Ideal)) (i : S100000x64.Idx) :
    broadcastInDim S100000x64 ![0, 1] bcast_S100000x1_S100000x64_0_1 v i = v (colUnit i) :=
  broadcastInDim_apply _ bcast_S100000x1_S100000x64_0_1 v i (colUnit i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- Per-row values as a one-column array, read at a row. -/
theorem bcUnit_apply (v : PerNode Ideal) (u : S100000x1.Idx) :
    broadcastInDim S100000x1 ![0] bcast_S100000_S100000x1_0 v u = v (rowOfU u) :=
  broadcastInDim_apply _ bcast_S100000_S100000x1_0 v u (rowOfU u) (fun a => match a with
    | ⟨0, _⟩ => by show (u 0).val = if (100000 : Nat) = 1 then 0 else (u 0).val; rw [if_neg (by decide)])

/-- A per-row value spread over the row's 64 columns, read at an entry: the value of the entry's row. -/
theorem perRow_apply (v : PerNode Ideal) (i : S100000x64.Idx) :
    broadcastInDim S100000x64 ![0, 1] bcast_S100000x1_S100000x64_0_1 (broadcastInDim S100000x1 ![0] bcast_S100000_S100000x1_0 v) i = v (rowOf' i) :=
  (bcCols_apply _ i).trans ((bcUnit_apply v (colUnit i)).trans (congrArg v (rowOfU_colUnit i)))

/-! ## The first layer at an entry -/

theorem layer1_apply (A X : Feat Ideal) (Wl Wr : W128 Ideal) (b : B128 Ideal) (i : S100000x128.Idx) :
    layer1 A X Wl Wr b i
      = max (affine2 (fun k => A (rowK i k)) (fun k => X (rowK i k)) (fun k => Wl (kCol i k)) (fun k => Wr (kCol i k)) (b (colOf i)))
          (Ideal.ofBits .f32 0x00000000#32) := by
  unfold layer1 affine2
  rw [ValueIdx.maximumf_apply, ValueIdx.addf_apply, ValueIdx.addf_apply, dot128_apply, dot128_apply, bias128_apply, splat128_apply]

/-! ## The second layer at an entry -/

theorem logits_apply (A H : Feat Ideal) (Wl Wr : W64 Ideal) (b : B64 Ideal) (i : S100000x64.Idx) :
    logitsOf A H Wl Wr b i
      = affine2 (fun k => A (rowK' i k)) (fun k => H (rowK' i k)) (fun k => Wl (kCol' i k)) (fun k => Wr (kCol' i k)) (b (colOf' i)) := by
  unfold logitsOf affine2
  rw [ValueIdx.addf_apply, ValueIdx.addf_apply, dot64_apply, dot64_apply, bias64_apply]

/-- The host's row maximum at a row: the fold of `max` from `-∞` over the row. -/
theorem hostRowMax_apply (y : Out Ideal) (r : S100000.Idx) :
    Host.reduce (FloatOps.maximumf (F := Ideal) (φ := .f32)) y (constant (F := Ideal) S_ .f32 0xFF800000#32) reducesTo_S100000x64_S100000_d1 h_S_ r
      = rowMax (fun j => y (rowJ r j)) := by
  refine (Host.reduce_eq_fold_single (FloatOps.maximumf (F := Ideal) (φ := .f32)) y (constant (F := Ideal) S_ .f32 0xFF800000#32)
    reducesTo_S100000x64_S100000_d1 (by decide : S100000x64.Reduces [1] S100000) h_S_ r).trans ?_
  unfold rowMax
  exact congrArg (fun f : Fin 64 → EReal => (Finset.univ : Finset (Fin 64)).fold max (Ideal.ofBits .f32 0xFF800000#32) f)
    (funext fun k => congrArg y (funext fun a => Fin.ext (by match a with | ⟨0, _⟩ => rfl | ⟨1, _⟩ => rfl)))

theorem rowMaxOf_apply (y : Out Ideal) (i : S100000x64.Idx) : rowMaxOf y i = rowMax (fun j => y (rowJ (rowOf' i) j)) := by
  unfold rowMaxOf
  rw [perRow_apply, ValueIdx.maximumf_apply, splatRows_apply]
  refine (negInf_max _).trans ?_
  exact hostRowMax_apply y (rowOf' i)

theorem shiftedOf_apply (y : Out Ideal) (i : S100000x64.Idx) : shiftedOf y i = y i - rowMax (fun j => y (rowJ (rowOf' i) j)) := by
  unfold shiftedOf
  rw [ValueIdx.subf_apply, rowMaxOf_apply]

/-- The row-wise log-softmax at an entry is the row function of the entry's row at the entry's column. -/
theorem logSoftmaxOf_apply (y : Out Ideal) (i : S100000x64.Idx) :
    logSoftmaxOf y i = logSoftmaxRow (fun j => y (rowJ (rowOf' i) j)) (colJ i) := by
  have hR : S100000x64.Reduces [1] S100000 := by decide
  unfold logSoftmaxOf logSoftmaxRow
  rw [ValueIdx.subf_apply, shiftedOf_apply, bcCols_apply]
  simp only [Host.log, Ideal.hostUnary_log_def]
  rw [bcUnit_apply, rowOfU_colUnit]
  simp only [Host.reduceAdd, Ideal.hostReduceAdd_def]
  rw [Ideal.hostReduceAdd_single reducesTo_S100000x64_S100000_d1 hR]
  simp only [Host.exp, Ideal.hostUnary_exp_def, ValueIdx.constant_apply, Ideal.ofBits_zero_f32, zero_add]
  rw [rowJ_self]
  refine congrArg (fun s => _ - Ideal.log s) (Finset.sum_congr rfl fun k _ => ?_)
  rw [shiftedOf_apply]
  refine congrArg Ideal.exp ?_
  have e : hR.lift (rowOf' i) k = rowJ (rowOf' i) k :=
    funext fun a => Fin.ext (by match a with | ⟨0, _⟩ => rfl | ⟨1, _⟩ => rfl)
  rw [e, rowOf'_rowJ (rowOf' i) k]

theorem layer2_apply (A H : Feat Ideal) (Wl Wr : W64 Ideal) (b : B64 Ideal) (i : S100000x64.Idx) :
    layer2 A H Wl Wr b i = logSoftmaxRow (fun j => logitsOf A H Wl Wr b (rowJ (rowOf' i) j)) (colJ i) := by
  unfold layer2
  exact logSoftmaxOf_apply _ i

end Cert.Sage

end
-- ==== Proof.Layer1.lean ====
/-
  THE FIRST GRID'S OUTPUT ARRAY is the specification's first layer of what the grid finds in its operand arrays.

  The grid has 20 points; point `t` reads rows `5000·t … 5000·t + 4999` of its first two operands (the aggregated
  features `A` and the features `X`), the two weight matrices and the bias whole, and writes back the same rows of
  the output. Its body computes, at row `p` and column `q` of the block,

      max ((sum_k A_blk (p, k) · Wl (k, q) + sum_k X_blk (p, k) · Wr (k, q)) + b q) 0

  the two matrix products into zero accumulators, the narrowing of their operands the identity at the extended
  reals. Row `p` of block `t` is row `5000·t + p` of the array, so this is the specification's first layer at the
  array entry the block entry sits at; the 20 blocks tile the array (row `r` lies in block `r / 5000`), hence after
  the 20 write-backs the output array is the first layer, whole.
-/
import proofs.«132819_j73521250173079_1_alg».proof.Proof.SpecRead
import proofs.«132819_j73521250173079_1_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)
open Cert.Sage (affine2)

/-! ## The body's arithmetic at a block entry -/

theorem lhs0_d128 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1_d128 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs0_d128 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs1_d128 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl
/-- The block's contraction at (row `p`, column `q`): the sum over `k < 128` of the left block at (p, k) times the right
    operand at (k, q). -/
theorem sum_d128 (l : S5000x128.Idx → EReal) (r : S128x128.Idx → EReal) (p : Fin 5000) (q : Fin 128) :
    ∑ c : dot_S5000x128_S128x128_S5000x128_1_0_0_1_n_n.contr.Idx, l (dot_S5000x128_S128x128_S5000x128_1_0_0_1_n_n.lhsIdx (ix2 p q) c) * r (dot_S5000x128_S128x128_S5000x128_1_0_0_1_n_n.rhsIdx (ix2 p q) c) = ∑ k : Fin 128, l (ix2 p k) * r (ix2 k q) := by
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs0_d128 _ _
    | ⟨1, _⟩ => exact (lhs1_d128 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs0_d128 _ _).trans hk
    | ⟨1, _⟩ => exact rhs1_d128 _ _)
  rw [el, er]

/-- A matrix product into the zero accumulator, at a block entry. -/
theorem mm128 (l : FVec Ideal S5000x128 .bf16) (r : FVec Ideal S128x128 .bf16) (p : Fin 5000) (q : Fin 128) :
    matmul (F := Ideal) dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply]
  exact sum_d128 l r p q

/-- The bias as a one-row array spread over the block's rows, at a block entry: the bias at the entry's column. -/
theorem bias128 (b : Vec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

/-- THE PAYLOAD at row `p`, column `q` of the block. -/
theorem pay_apply (a x : Vec Ideal S5000x128 .f32) (wl wr : Vec Ideal S128x128 .f32) (b : Vec Ideal S128 .f32) (p : Fin 5000) (q : Fin 128) :
    k0_pay1 (F := Ideal) a x wl wr b (ix2 p q)
      = max (affine2 (fun k => a (ix2 p k)) (fun k => x (ix2 p k)) (fun k => wl (ix2 k q)) (fun k => wr (ix2 k q)) (b (ix1 q)))
          (Ideal.ofBits .f32 0x00000000#32) := by
  have e1 := (mm128 (truncf .bf16 (shapeCast S5000x128 a shapeCasts_S5000x128_S5000x128) bitsLt_bf16_f32) (truncf .bf16 wl bitsLt_bf16_f32) p q).trans
    (show _ = ∑ k : Fin 128, a (ix2 p k) * wl (ix2 k q) by rw [shapeCast_self]; rfl)
  have e2 := mm128 (truncf .bf16 x bitsLt_bf16_f32) (truncf .bf16 wr bitsLt_bf16_f32) p q
  have e3 := bias128 b p q
  unfold affine2
  exact congrArg₂ max (congrArg₂ (· + ·) (congrArg₂ (· + ·) e1 e2) e3) rfl

/-! ## The windows' index maps, decided over the 20 points -/

theorem hz : (![0, 0] : Fin 2 → Nat) = fun _ => 0 := funext fun a => by fin_cases a <;> rfl
theorem hz1 : (![0] : Fin 1 → Nat) = fun _ => 0 := funext fun a => by fin_cases a; rfl

/-- The row-blocked windows (the two feature operands and the output) all sit at block row `t`, block column 0; the
    weights and the bias are one block each. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## What a point writes back -/

variable (V : (c : Dev nD) → (b : Ref sig .tc) → Buf (Elt Ideal) ((c : Thread nD τ).loc b))

/-- The specification's first layer of the arrays the grid finds. -/
abbrev target (c : Dev nD) : Buf (Elt Ideal) ((c : Thread nD τ).loc main_v25) :=
  Cert.Sage.layer1 (V c main_v24) (V c main_arg0) (V c main_arg2) (V c main_arg3) (V c main_arg4)

/-- WHAT POINT `t` WRITES BACK is block `t` of the first layer. -/
theorem flushed_eq (c : Dev nD) (t : Fin cfg0.N) :
    (dat0 V c).flushed 5 t = ((cfg0.win 5).blk t).view.read (Elt Ideal) (target V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S128) hz1]
  obtain ⟨f0, f1, f2, f3, f4, f5, f6, f7, f8, f9, f10⟩ := idx_facts t
  funext y
  obtain ⟨p, q, rfl⟩ : ∃ (p : Fin 5000) (q : Fin 128), y = ix2 p q := ⟨y 0, y 1, eq_ix2 y⟩
  refine (pay_apply _ _ _ _ _ p q).trans ?_
  refine Eq.trans ?_ (Cert.Sage.layer1_apply _ _ _ _ _ (((cfg0.win 5).blk t).view.emb (ix2 p q))).symm
  refine congrArg₂ max ?_ rfl
  refine congr (congr (congr (congr (congrArg affine2 ?_) ?_) ?_) ?_) ?_
  · funext k
    show V c main_v24 (((cfg0.win 0).blk t).view.emb (ix2 p k)) = V c main_v24 _
    refine congrArg (V c main_v24) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · funext k
    show V c main_arg0 (((cfg0.win 1).blk t).view.emb (ix2 p k)) = V c main_arg0 _
    refine congrArg (V c main_arg0) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  · funext k
    show V c main_arg2 (((cfg0.win 2).blk t).view.emb (ix2 k q)) = V c main_arg2 _
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  · funext k
    show V c main_arg3 (((cfg0.win 3).blk t).view.emb (ix2 k q)) = V c main_arg3 _
    refine congrArg (V c main_arg3) (funext fun a => Fin.ext ?_)
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  · show V c main_arg4 (((cfg0.win 4).blk t).view.emb (ix1 q)) = V c main_arg4 _
    refine congrArg (V c main_arg4) (funext fun a => Fin.ext ?_)
    match a with
    | ⟨0, _⟩ => show win0_4.index t (0 : Fin 1) * 128 + 1 * q.val = win0_5.index t (1 : Fin 2) * 128 + 1 * q.val; omega

/-! ## The blocks tile the array -/

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- Row `r` of the array lies in block `r / 5000`. -/
theorem cover (i : S100000x128.Idx) : ∃ t : Fin cfg0.N, (cfg0.win 5).flush t = true ∧ i ∈ ((cfg0.win 5).blk t).view.set := by
  have hN : cfg0.N = 20 := N_0
  have hi0 : (i 0).val < 100000 := (i 0).isLt
  have hi1 : (i 1).val < 128 := (i 1).isLt
  let t : Fin cfg0.N := ⟨(i 0).val / 5000, by rw [hN]; omega⟩
  have ht : t.val = (i 0).val / 5000 := rfl
  obtain ⟨f0, f1, f2, f3, f4, f5, f6, f7, f8, f9, f10⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY after the 20 write-backs: the first layer of the arrays the grid found. -/
theorem final (c : Dev nD) : (dat0 V c).arrAt 5 cfg0.N = target V c :=
  (dat0 V c).arrAt_eq_of_cover 5 (target V c) (fun t _ => flushed_eq V c t) cover

end Cert.KernelIdeal.Layer1

end
-- ==== Proof.Layer2.lean ====
/-
  THE SECOND GRID'S OUTPUT ARRAY is the specification's second layer of what the grid finds in its operand arrays.

  Again 20 points, point `t` on rows `5000·t … 5000·t + 4999` of the aggregated hidden features `A`, the hidden
  features `H` and the output (64 columns), the weights and the bias whole. The body first forms the block's logits

      Z (p, j) = (sum_k A_blk (p, k) · Wl (k, j) + sum_k H_blk (p, k) · Wr (k, j)) + b j

  and then, row by row, `(Z (p, q) - M p) - log (sum_j exp (Z (p, j) - M p))` with `M p` the fold of `max` from
  `-∞` over row `p` — the lane maximum and the lane sum each a reduction over the block's second axis, kept as a
  column and spread back over the 64 columns. A row of the block is a row of the array, so the block's row-wise
  log-softmax is the array's at the same rows: entry by entry the block holds the specification's second layer,
  and the 20 blocks tile the array.
-/
import proofs.«132819_j73521250173079_1_alg».proof.Proof.SpecRead
import proofs.«132819_j73521250173079_1_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)
open Cert.Sage (affine2 rowMax logSoftmaxRow)

/-! ## The block's logits at an entry -/

theorem lhs0_d64 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs1_d64 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs0_d64 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs1_d64 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl
/-- The block's contraction at (row `p`, column `q`): the sum over `k < 128` of the left block at (p, k) times the right
    operand at (k, q). -/
theorem sum_d64 (l : S5000x128.Idx → EReal) (r : S128x64.Idx → EReal) (p : Fin 5000) (q : Fin 64) :
    ∑ c : dot_S5000x128_S128x64_S5000x64_1_0_0_1_n_n.contr.Idx, l (dot_S5000x128_S128x64_S5000x64_1_0_0_1_n_n.lhsIdx (ix2 p q) c) * r (dot_S5000x128_S128x64_S5000x64_1_0_0_1_n_n.rhsIdx (ix2 p q) c) = ∑ k : Fin 128, l (ix2 p k) * r (ix2 k q) := by
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs0_d64 _ _
    | ⟨1, _⟩ => exact (lhs1_d64 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs0_d64 _ _).trans hk
    | ⟨1, _⟩ => exact rhs1_d64 _ _)
  rw [el, er]

/-- A matrix product into the zero accumulator, at a block entry. -/
theorem mm64 (l : FVec Ideal S5000x128 .bf16) (r : FVec Ideal S128x64 .bf16) (p : Fin 5000) (q : Fin 64) :
    matmul (F := Ideal) dot_S5000x128_S128x64_S5000x64_1_0_0_1_n_n none l r (constant S5000x64 .f32 0x00000000#32) (ix2 p q)
      = ∑ k : Fin 128, l (ix2 p k) * r (ix2 k q) := by
  simp only [matmul]
  rw [Ideal.matmul_constant_zero_apply]
  exact sum_d64 l r p q

/-- The bias as a one-row array spread over the block's rows, at a block entry. -/
theorem bias64 (b : Vec Ideal S64 .f32) (p : Fin 5000) (q : Fin 64) :
    broadcastTo S5000x64 (shapeCast S1x64 b shapeCasts_S64_S1x64) broadcasts_S1x64_S5000x64 (ix2 p q) = b (ix1 q) :=
  (broadcastTo_1b_ab_apply _ broadcasts_S1x64_S5000x64 p q).trans (shapeCast_a_1a_apply b shapeCasts_S64_S1x64 0 q)

/-- The block's logits, as the body forms them. -/
def logitsBlock (a h : Vec Ideal S5000x128 .f32) (wl wr : Vec Ideal S128x64 .f32) (b : Vec Ideal S64 .f32) : FVec Ideal S5000x64 .f32 :=
  addf
    (addf
      (matmul dot_S5000x128_S128x64_S5000x64_1_0_0_1_n_n none
        (truncf .bf16 (shapeCast S5000x128 a shapeCasts_S5000x128_S5000x128) bitsLt_bf16_f32) (truncf .bf16 wl bitsLt_bf16_f32)
        (constant S5000x64 .f32 0x00000000#32))
      (matmul dot_S5000x128_S128x64_S5000x64_1_0_0_1_n_n none
        (truncf .bf16 (shapeCast S5000x128 h shapeCasts_S5000x128_S5000x128) bitsLt_bf16_f32) (truncf .bf16 wr bitsLt_bf16_f32)
        (constant S5000x64 .f32 0x00000000#32)))
    (broadcastTo S5000x64 (shapeCast S1x64 b shapeCasts_S64_S1x64) broadcasts_S1x64_S5000x64)

theorem logitsBlock_apply (a h : Vec Ideal S5000x128 .f32) (wl wr : Vec Ideal S128x64 .f32) (b : Vec Ideal S64 .f32) (p : Fin 5000) (j : Fin 64) :
    logitsBlock a h wl wr b (ix2 p j)
      = affine2 (fun k => a (ix2 p k)) (fun k => h (ix2 p k)) (fun k => wl (ix2 k j)) (fun k => wr (ix2 k j)) (b (ix1 j)) := by
  have e1 := (mm64 (truncf .bf16 (shapeCast S5000x128 a shapeCasts_S5000x128_S5000x128) bitsLt_bf16_f32) (truncf .bf16 wl bitsLt_bf16_f32) p j).trans
    (show _ = ∑ k : Fin 128, a (ix2 p k) * wl (ix2 k j) by rw [shapeCast_self]; rfl)
  have e2 := (mm64 (truncf .bf16 (shapeCast S5000x128 h shapeCasts_S5000x128_S5000x128) bitsLt_bf16_f32) (truncf .bf16 wr bitsLt_bf16_f32) p j).trans
    (show _ = ∑ k : Fin 128, h (ix2 p k) * wr (ix2 k j) by rw [shapeCast_self]; rfl)
  have e3 := bias64 b p j
  unfold affine2
  exact congrArg₂ (· + ·) (congrArg₂ (· + ·) e1 e2) e3

/-! ## A per-row value kept as a column, and spread back over the columns -/

/-- A per-row vector cast to a one-column array, at (row, 0): the vector at the row. -/
theorem colCast (v : FVec Ideal S5000 .f32) (p : Fin 5000) (u : Fin 1) :
    shapeCast S5000x1 v shapeCasts_S5000_S5000x1 (ix2 p u) = v (ix1 p) :=
  shapeCast_apply v shapeCasts_S5000_S5000x1 (ix2 p u) (ix1 p) (by
    rw [Shape.rowMajor_val_two, Shape.rowMajor_val_one]
    show p.val = p.val * 1 + u.val
    have := u.isLt
    omega)

/-- A one-column array spread over the 64 columns, at (row, column): the column's entry at the row. -/
theorem colBcast (w : FVec Ideal S5000x1 .f32) (p : Fin 5000) (q : Fin 64) :
    broadcastTo S5000x64 w broadcasts_S5000x1_S5000x64 (ix2 p q) = w (ix2 p (0 : Fin 1)) :=
  broadcastTo_apply w broadcasts_S5000x1_S5000x64 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-! ## The two lane reductions at a row -/

/-- The lane maximum at row `p`: the fold of `max` from `-∞` over the row. -/
theorem laneMax (v : FVec Ideal S5000x64 .f32) (p : Fin 5000) :
    multiReduction (F := Ideal) .maximumf [1] S5000 v 0xFF800000#32 reduces_S5000x64_S5000 (.inl rfl) rfl (ix1 p)
      = rowMax (fun j => v (ix2 p j)) := by
  refine (Ideal.multiReduction_maximumf_single v 0xFF800000#32 reduces_S5000x64_S5000 (.inl rfl) rfl (ix1 p)).trans ?_
  unfold rowMax
  exact congrArg (fun f : Fin 64 → EReal => (Finset.univ : Finset (Fin 64)).fold max (Ideal.ofBits .f32 0xFF800000#32) f)
    (funext fun j => congrArg v (funext fun a => Fin.ext (by match a with | ⟨0, _⟩ => rfl | ⟨1, _⟩ => rfl)))

/-- The lane sum at row `p`: the sum over the row. -/
theorem laneSum (v : FVec Ideal S5000x64 .f32) (p : Fin 5000) :
    multiReduction (F := Ideal) .add [1] S5000 v 0x00000000#32 reduces_S5000x64_S5000 (.inl rfl) rfl (ix1 p)
      = ∑ j : Fin 64, v (ix2 p j) :=
  (Ideal.multiReduction_add_single v 0x00000000#32 reduces_S5000x64_S5000 (.inl rfl) rfl (ix1 p)).trans
    (Finset.sum_congr rfl fun j _ => congrArg v (funext fun a => Fin.ext (by match a with | ⟨0, _⟩ => rfl | ⟨1, _⟩ => rfl)))

/-! ## The block's row-wise log-softmax -/

/-- The block minus its rows' maxima, as the body forms it. -/
def shiftedBlock (Z : FVec Ideal S5000x64 .f32) : FVec Ideal S5000x64 .f32 :=
  subf Z (broadcastTo S5000x64
    (shapeCast S5000x1 (multiReduction .maximumf [1] S5000 Z 0xFF800000#32 reduces_S5000x64_S5000 (.inl rfl) rfl) shapeCasts_S5000_S5000x1)
    broadcasts_S5000x1_S5000x64)

/-- The block's log-softmax, as the body forms it from the logits. -/
def softBlock (Z : FVec Ideal S5000x64 .f32) : FVec Ideal S5000x64 .f32 :=
  subf (shiftedBlock Z) (broadcastTo S5000x64
    (log (shapeCast S5000x1 (multiReduction .add [1] S5000 (exp (shiftedBlock Z)) 0x00000000#32 reduces_S5000x64_S5000 (.inl rfl) rfl) shapeCasts_S5000_S5000x1))
    broadcasts_S5000x1_S5000x64)

theorem shiftedBlock_apply (Z : FVec Ideal S5000x64 .f32) (p : Fin 5000) (j : Fin 64) :
    shiftedBlock Z (ix2 p j) = Z (ix2 p j) - rowMax (fun j' => Z (ix2 p j')) :=
  congrArg (fun s => Z (ix2 p j) - s) ((colBcast _ p j).trans ((colCast _ p 0).trans (laneMax Z p)))

theorem softBlock_apply (Z : FVec Ideal S5000x64 .f32) (p : Fin 5000) (q : Fin 64) :
    softBlock Z (ix2 p q) = logSoftmaxRow (fun j => Z (ix2 p j)) q := by
  unfold logSoftmaxRow
  exact congrArg₂ (· - ·) (shiftedBlock_apply Z p q)
    ((colBcast _ p q).trans (congrArg Ideal.log ((colCast _ p 0).trans ((laneSum _ p).trans
      (Finset.sum_congr rfl fun j _ => congrArg Ideal.exp (shiftedBlock_apply Z p j))))))

/-- The body's payload is the block's log-softmax of the block's logits. -/
theorem pay_eq (a h : Vec Ideal S5000x128 .f32) (wl wr : Vec Ideal S128x64 .f32) (b : Vec Ideal S64 .f32) :
    k1_pay1 (F := Ideal) a h wl wr b = softBlock (logitsBlock a h wl wr b) := rfl

/-- THE PAYLOAD at row `p`, column `q` of the block. -/
theorem pay_apply (a h : Vec Ideal S5000x128 .f32) (wl wr : Vec Ideal S128x64 .f32) (b : Vec Ideal S64 .f32) (p : Fin 5000) (q : Fin 64) :
    k1_pay1 (F := Ideal) a h wl wr b (ix2 p q)
      = logSoftmaxRow (fun j => affine2 (fun k => a (ix2 p k)) (fun k => h (ix2 p k)) (fun k => wl (ix2 k j)) (fun k => wr (ix2 k j)) (b (ix1 j))) q :=
  (congrFun (pay_eq a h wl wr b) (ix2 p q)).trans ((softBlock_apply _ p q).trans
    (congrArg (fun f => logSoftmaxRow f q) (funext fun j => logitsBlock_apply a h wl wr b p j)))

/-! ## The windows' index maps, decided over the 20 points -/

theorem hz : (![0, 0] : Fin 2 → Nat) = fun _ => 0 := funext fun a => by fin_cases a <;> rfl
theorem hz1 : (![0] : Fin 1 → Nat) = fun _ => 0 := funext fun a => by fin_cases a; rfl

theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-! ## What a point writes back -/

variable (V : (c : Dev nD) → (b : Ref sig .tc) → Buf (Elt Ideal) ((c : Thread nD τ).loc b))

/-- The specification's second layer of the arrays the grid finds. -/
abbrev target (c : Dev nD) : Buf (Elt Ideal) ((c : Thread nD τ).loc main_v39) :=
  Cert.Sage.layer2 (V c main_v38) (V c main_v25) (V c main_arg5) (V c main_arg6) (V c main_arg7)

/-- WHAT POINT `t` WRITES BACK is block `t` of the second layer. -/
theorem flushed_eq (c : Dev nD) (t : Fin cfg1.N) :
    (dat1 V c).flushed 5 t = ((cfg1.win 5).blk t).view.read (Elt Ideal) (target V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S64) hz1]
  obtain ⟨f0, f1, f2, f3, f4, f5, f6, f7, f8, f9, f10⟩ := idx_facts t
  funext y
  obtain ⟨p, q, rfl⟩ : ∃ (p : Fin 5000) (q : Fin 64), y = ix2 p q := ⟨y 0, y 1, eq_ix2 y⟩
  refine (pay_apply _ _ _ _ _ p q).trans ?_
  refine Eq.trans ?_ (Cert.Sage.layer2_apply _ _ _ _ _ (((cfg1.win 5).blk t).view.emb (ix2 p q))).symm
  refine congr (congrArg logSoftmaxRow (funext fun j => ?_)) (Fin.ext ?_)
  · refine Eq.trans ?_ (Cert.Sage.logits_apply _ _ _ _ _ _).symm
    refine congr (congr (congr (congr (congrArg affine2 ?_) ?_) ?_) ?_) ?_
    · funext k
      show V c main_v38 (((cfg1.win 0).blk t).view.emb (ix2 p k)) = V c main_v38 _
      refine congrArg (V c main_v38) (funext fun a => Fin.ext ?_)
      match a with
      | ⟨0, _⟩ => show win1_0.index t (0 : Fin 2) * 5000 + 1 * p.val = win1_5.index t (0 : Fin 2) * 5000 + 1 * p.val; omega
      | ⟨1, _⟩ => show win1_0.index t (1 : Fin 2) * 128 + 1 * k.val = k.val; omega
    · funext k
      show V c main_v25 (((cfg1.win 1).blk t).view.emb (ix2 p k)) = V c main_v25 _
      refine congrArg (V c main_v25) (funext fun a => Fin.ext ?_)
      match a with
      | ⟨0, _⟩ => show win1_1.index t (0 : Fin 2) * 5000 + 1 * p.val = win1_5.index t (0 : Fin 2) * 5000 + 1 * p.val; omega
      | ⟨1, _⟩ => show win1_1.index t (1 : Fin 2) * 128 + 1 * k.val = k.val; omega
    · funext k
      show V c main_arg5 (((cfg1.win 2).blk t).view.emb (ix2 k j)) = V c main_arg5 _
      refine congrArg (V c main_arg5) (funext fun a => Fin.ext ?_)
      match a with
      | ⟨0, _⟩ => show win1_2.index t (0 : Fin 2) * 128 + 1 * k.val = k.val; omega
      | ⟨1, _⟩ => show win1_2.index t (1 : Fin 2) * 64 + 1 * j.val = j.val; omega
    · funext k
      show V c main_arg6 (((cfg1.win 3).blk t).view.emb (ix2 k j)) = V c main_arg6 _
      refine congrArg (V c main_arg6) (funext fun a => Fin.ext ?_)
      match a with
      | ⟨0, _⟩ => show win1_3.index t (0 : Fin 2) * 128 + 1 * k.val = k.val; omega
      | ⟨1, _⟩ => show win1_3.index t (1 : Fin 2) * 64 + 1 * j.val = j.val; omega
    ·
      show V c main_arg7 (((cfg1.win 4).blk t).view.emb (ix1 j)) = V c main_arg7 _
      refine congrArg (V c main_arg7) (funext fun a => Fin.ext ?_)
      match a with
      | ⟨0, _⟩ => show win1_4.index t (0 : Fin 1) * 64 + 1 * j.val = j.val; omega
  · show q.val = win1_5.index t (1 : Fin 2) * 64 + 1 * q.val
    omega

/-! ## The blocks tile the array -/

theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v39).slice (win1_5.rect t)).set ↔ _
  rw [View.set_slice_whole, Rect.mem_set_unit]
  exact Iff.rfl

/-- Row `r` of the array lies in block `r / 5000`. -/
theorem cover (i : S100000x64.Idx) : ∃ t : Fin cfg1.N, (cfg1.win 5).flush t = true ∧ i ∈ ((cfg1.win 5).blk t).view.set := by
  have hN : cfg1.N = 20 := N_1
  have hi0 : (i 0).val < 100000 := (i 0).isLt
  have hi1 : (i 1).val < 64 := (i 1).isLt
  let t : Fin cfg1.N := ⟨(i 0).val / 5000, by rw [hN]; omega⟩
  have ht : t.val = (i 0).val / 5000 := rfl
  obtain ⟨f0, f1, f2, f3, f4, f5, f6, f7, f8, f9, f10⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE ARRAY after the 20 write-backs: the second layer of the arrays the grid found. -/
theorem final (c : Dev nD) : (dat1 V c).arrAt 5 cfg1.N = target V c :=
  (dat1 V c).arrAt_eq_of_cover 5 (target V c) (fun t _ => flushed_eq V c t) cover

end Cert.KernelIdeal.Layer2

end
-- ==== Proof.KernelValue.lean ====
/-
  THE IDEALIZED KERNEL'S RESULT is the network of the arguments.

  Walk the four segments. The first host stretch leaves, where the first grid looks for its operands, the mean
  aggregation of the node features and the untouched arguments; so the first grid's output array is the hidden layer
  `hiddenOf` of the arguments. The second host stretch reads that array and the three small buffers the first
  stretch left (sources, destinations, per-node factors — the first grid touches none of them) and leaves the mean
  aggregation of the hidden layer; so the second grid's output array, which is @main's result, is the second layer of
  that aggregation, the hidden layer and the last three arguments: the network.
-/
import proofs.«132819_j73521250173079_1_alg».proof.Proof.KernelRun
import proofs.«132819_j73521250173079_1_alg».proof.Proof.HostGlue
import proofs.«132819_j73521250173079_1_alg».proof.Proof.Layer1
import proofs.«132819_j73521250173079_1_alg».proof.Proof.Layer2

set_option maxRecDepth 16384

noncomputable section

namespace Cert.KernelIdeal.KernelValue

open Cert.KernelIdeal Cert.KernelIdeal.Gen Idealize.ShloMosaic Idealize.ShloMosaic.TcCoe Idealize.SL.Sem
open Cert.Sage (aggOf srcOf dstOf invDegOf layer1 layer2 hiddenOf net)

variable (m : (ℓ : Loc nD τ sig) → Buf (Elt Ideal) ℓ) (ρ : Dev nD → PrngReg)

/-- The first grid's output array after the grid: the hidden layer of the arguments. -/
theorem hidden_eq (c : Dev nD) :
    W2 m ρ c (Proc.devRef .tc main_v25)
      = hiddenOf (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 5).trans ((Layer1.final (V1 m ρ) c).trans
    (congr (congr (congr (congr (congrArg layer1 (HostGlue.stretch0_agg (W0 m ρ c))) (HostGlue.stretch0_arg0 (W0 m ρ c)))
      (HostGlue.stretch0_arg2 (W0 m ρ c))) (HostGlue.stretch0_arg3 (W0 m ρ c))) (HostGlue.stretch0_arg4 (W0 m ρ c))))

/-- The three small buffers outlive the first grid. -/
theorem src_eq (c : Dev nD) : W2 m ρ c (Proc.devRef .tc main_v1) = srcOf (m ((c : Thread nD τ).loc main_arg1)) :=
  (W2_of_ne m ρ c main_v1 (by decide)).trans (HostGlue.stretch0_src (W0 m ρ c))
theorem dst_eq (c : Dev nD) : W2 m ρ c (Proc.devRef .tc main_v3) = dstOf (m ((c : Thread nD τ).loc main_arg1)) :=
  (W2_of_ne m ρ c main_v3 (by decide)).trans (HostGlue.stretch0_dst (W0 m ρ c))
theorem invDeg_eq (c : Dev nD) : W2 m ρ c (Proc.devRef .tc main_v11) = invDegOf (dstOf (m ((c : Thread nD τ).loc main_arg1))) :=
  (W2_of_ne m ρ c main_v11 (by decide)).trans (HostGlue.stretch0_invDeg (W0 m ρ c))

/-- The second grid's first operand: the mean aggregation of the hidden layer. -/
theorem agg2_eq (c : Dev nD) :
    V3 m ρ c main_v38
      = aggOf (hiddenOf (m ((c : Thread nD τ).loc main_arg0)) (m ((c : Thread nD τ).loc main_arg1)) (m ((c : Thread nD τ).loc main_arg2)) (m ((c : Thread nD τ).loc main_arg3)) (m ((c : Thread nD τ).loc main_arg4)))
          (srcOf (m ((c : Thread nD τ).loc main_arg1))) (dstOf (m ((c : Thread nD τ).loc main_arg1))) (invDegOf (dstOf (m ((c : Thread nD τ).loc main_arg1)))) :=
  (HostGlue.stretch1_agg (W2 m ρ c)).trans
    (congr (congr (congr (congrArg aggOf (hidden_eq m ρ c)) (src_eq m ρ c)) (dst_eq m ρ c)) (invDeg_eq m ρ c))

/-- Its second operand: the hidden layer, as the first grid left it. -/
theorem hidden2_eq (c : Dev nD) :
    V3 m ρ c main_v25
      = hiddenOf (m ((c : Thread nD τ).loc main_arg0)) (m ((c : Thread nD τ).loc main_arg1)) (m ((c : Thread nD τ).loc main_arg2)) (m ((c : Thread nD τ).loc main_arg3)) (m ((c : Thread nD τ).loc main_arg4)) :=
  (HostGlue.stretch1_v25 (W2 m ρ c)).trans (hidden_eq m ρ c)

theorem arg5_eq (c : Dev nD) : V3 m ρ c main_arg5 = (m ((c : Thread nD τ).loc main_arg5)) :=
  (HostGlue.stretch1_arg5 (W2 m ρ c)).trans ((W2_of_ne m ρ c main_arg5 (by decide)).trans (HostGlue.stretch0_arg5 (W0 m ρ c)))
theorem arg6_eq (c : Dev nD) : V3 m ρ c main_arg6 = (m ((c : Thread nD τ).loc main_arg6)) :=
  (HostGlue.stretch1_arg6 (W2 m ρ c)).trans ((W2_of_ne m ρ c main_arg6 (by decide)).trans (HostGlue.stretch0_arg6 (W0 m ρ c)))
theorem arg7_eq (c : Dev nD) : V3 m ρ c main_arg7 = (m ((c : Thread nD τ).loc main_arg7)) :=
  (HostGlue.stretch1_arg7 (W2 m ρ c)).trans ((W2_of_ne m ρ c main_arg7 (by decide)).trans (HostGlue.stretch0_arg7 (W0 m ρ c)))

/-- The result array after the second grid: the network of the arguments. -/
theorem result_eq (c : Dev nD) :
    W4 m ρ c (Proc.devRef .tc main_v39)
      = net (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) :=
  (W4_arr m ρ c 5).trans ((Layer2.final (V3 m ρ) c).trans
    (congr (congr (congr (congr (congrArg layer2 (agg2_eq m ρ c)) (hidden2_eq m ρ c)) (arg5_eq m ρ c)) (arg6_eq m ρ c)) (arg7_eq m ρ c)))

/-- Every weakly fair execution of the idealized kernel terminates, nothing faulting, with the result array at the
    network of the arguments and the arguments unchanged. -/
theorem run : θ_run defs (onTc (τ := τ) (main (F := Ideal))) ⟨m, fun _ => 0, ρ⟩ (fun r => ∀ c : Dev nD,
      r.2.mem ((c.tc : Thread nD τ).loc main_v39)
        = net (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (RunValue.run_named m ρ)

end Cert.KernelIdeal.KernelValue

end
-- ==== Proof.RefOps.lean ====
/-
  THE REFERENCE AS A STRAIGHT LINE: its 78 host operations in order (the rectifier and the log-softmax it calls stand at
  their call sites), cut after the first layer's output (41 operations), after the second layer's logits (22 more),
  and the row-wise log-softmax (the last 15). @main is that line; every operation touches TensorCore buffers only,
  and the program scopes no buffer and no semaphore.
-/
import proofs.«132819_j73521250173079_1_alg».proof.Proof.Spec
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.Sage

variable {F : FTy → Type} [FloatOps F]

/-- The first 41 operations: the edge list split, the in-degrees and their reciprocals, the first aggregation, the
    first layer through its rectifier. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (maximumf : (⟨S100000, .f32⟩ : BufTy).Contents (Elt F) → (⟨S100000, .f32⟩ : BufTy).Contents (Elt F) → (⟨S100000, .f32⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v10 main_v9 main_v11 (Host.divf : (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_arg0 main_v17 main_v18 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_4 (constant S_ .f32 0x00000000#32),
    unary main_cst_4 main_v19 (broadcastInDim S100000x128 ![] bcast_S_S100000x128 : (⟨S_, .f32⟩ : BufTy).Contents (Elt F) → (⟨S100000x128, .f32⟩ : BufTy).Contents (Elt F)),
    unary main_v3 main_v20 (broadcastInDim S1600000x1 ![0] bcast_S1600000_S1600000x1_0 : (⟨S1600000, .i32⟩ : BufTy).Contents (Elt F) → (⟨S1600000x1, .i32⟩ : BufTy).Contents (Elt F)),
    ternary main_v19 main_v20 main_v18 main_v21 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v11 main_v22 (broadcastInDim S100000x1 ![0] bcast_S100000_S100000x1_0 : (⟨S100000, .f32⟩ : BufTy).Contents (Elt F) → (⟨S100000x1, .f32⟩ : BufTy).Contents (Elt F)),
    unary main_v22 main_v23 (broadcastInDim S100000x128 ![0, 1] bcast_S100000x1_S100000x128_0_1 : (⟨S100000x1, .f32⟩ : BufTy).Contents (Elt F) → (⟨S100000x128, .f32⟩ : BufTy).Contents (Elt F)),
    binary main_v21 main_v23 main_v24 (mulf : (⟨S100000x128, .f32⟩ : BufTy).Contents (Elt F) → (⟨S100000x128, .f32⟩ : BufTy).Contents (Elt F) → (⟨S100000x128, .f32⟩ : BufTy).Contents (Elt F)),
    binary main_v24 main_arg2 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_arg0 main_arg3 main_v26 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v25 main_v26 main_v27 (addf : (⟨S100000x128, .f32⟩ : BufTy).Contents (Elt F) → (⟨S100000x128, .f32⟩ : BufTy).Contents (Elt F) → (⟨S100000x128, .f32⟩ : BufTy).Contents (Elt F)),
    unary main_arg4 main_v28 (broadcastInDim S1x128 ![1] bcast_S128_S1x128_1 : (⟨S128, .f32⟩ : BufTy).Contents (Elt F) → (⟨S1x128, .f32⟩ : BufTy).Contents (Elt F)),
    unary main_v28 main_v29 (broadcastInDim S100000x128 ![0, 1] bcast_S1x128_S100000x128_0_1 : (⟨S1x128, .f32⟩ : BufTy).Contents (Elt F) → (⟨S100000x128, .f32⟩ : BufTy).Contents (Elt F)),
    binary main_v27 main_v29 main_v30 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v30) (TRef.of (T := ⟨S100000x128, .f32⟩) main_call0_v0) (TRef.of (T := ⟨S100000x128, .f32⟩) main_v31) maximumf ]

/-- The next 22: the second aggregation and the second layer's logits. -/
abbrev opsB : List (HloOp τ sig (Elt F)) :=
  [ nullary main_c_5 (constantI S_ 32 0#32),
    unary main_c_5 main_v32 (broadcastInDim S1600000 ![] bcast_S_S1600000 : (⟨S_, .i32⟩ : BufTy).Contents (Elt F) → (⟨S1600000, .i32⟩ : BufTy).Contents (Elt F)),
    binary main_v1 main_v32 main_v33 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v34 (broadcastInDim S1600000 ![] bcast_S_S1600000 : (⟨S_, .i32⟩ : BufTy).Contents (Elt F) → (⟨S1600000, .i32⟩ : BufTy).Contents (Elt F)),
    binary main_v1 main_v34 main_v35 (addi : (⟨S1600000, .i32⟩ : BufTy).Contents (Elt F) → (⟨S1600000, .i32⟩ : BufTy).Contents (Elt F) → (⟨S1600000, .i32⟩ : BufTy).Contents (Elt F)),
    ternary main_v33 main_v35 main_v1 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v36 main_v37 (broadcastInDim S1600000x1 ![0] bcast_S1600000_S1600000x1_0 : (⟨S1600000, .i32⟩ : BufTy).Contents (Elt F) → (⟨S1600000x1, .i32⟩ : BufTy).Contents (Elt F)),
    binary main_v31 main_v37 main_v38 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v39 (broadcastInDim S100000x128 ![] bcast_S_S100000x128 : (⟨S_, .f32⟩ : BufTy).Contents (Elt F) → (⟨S100000x128, .f32⟩ : BufTy).Contents (Elt F)),
    unary main_v3 main_v40 (broadcastInDim S1600000x1 ![0] bcast_S1600000_S1600000x1_0 : (⟨S1600000, .i32⟩ : BufTy).Contents (Elt F) → (⟨S1600000x1, .i32⟩ : BufTy).Contents (Elt F)),
    ternary main_v39 main_v40 main_v38 main_v41 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v11 main_v42 (broadcastInDim S100000x1 ![0] bcast_S100000_S100000x1_0 : (⟨S100000, .f32⟩ : BufTy).Contents (Elt F) → (⟨S100000x1, .f32⟩ : BufTy).Contents (Elt F)),
    unary main_v42 main_v43 (broadcastInDim S100000x128 ![0, 1] bcast_S100000x1_S100000x128_0_1 : (⟨S100000x1, .f32⟩ : BufTy).Contents (Elt F) → (⟨S100000x128, .f32⟩ : BufTy).Contents (Elt F)),
    binary main_v41 main_v43 main_v44 (mulf : (⟨S100000x128, .f32⟩ : BufTy).Contents (Elt F) → (⟨S100000x128, .f32⟩ : BufTy).Contents (Elt F) → (⟨S100000x128, .f32⟩ : BufTy).Contents (Elt F)),
    binary main_v44 main_arg5 main_v45 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v31 main_arg6 main_v46 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v45 main_v46 main_v47 (addf : (⟨S100000x64, .f32⟩ : BufTy).Contents (Elt F) → (⟨S100000x64, .f32⟩ : BufTy).Contents (Elt F) → (⟨S100000x64, .f32⟩ : BufTy).Contents (Elt F)),
    unary main_arg7 main_v48 (broadcastInDim S1x64 ![1] bcast_S64_S1x64_1 : (⟨S64, .f32⟩ : BufTy).Contents (Elt F) → (⟨S1x64, .f32⟩ : BufTy).Contents (Elt F)),
    unary main_v48 main_v49 (broadcastInDim S100000x64 ![0, 1] bcast_S1x64_S100000x64_0_1 : (⟨S1x64, .f32⟩ : BufTy).Contents (Elt F) → (⟨S100000x64, .f32⟩ : BufTy).Contents (Elt F)),
    binary main_v47 main_v49 main_v50 (addf : (⟨S100000x64, .f32⟩ : BufTy).Contents (Elt F) → (⟨S100000x64, .f32⟩ : BufTy).Contents (Elt F) → (⟨S100000x64, .f32⟩ : BufTy).Contents (Elt F)) ]

/-- The last 15: the row-wise log-softmax of the logits. -/
abbrev opsC : List (HloOp τ sig (Elt F)) :=
  [ TRef.nullary (TRef.of (T := ⟨S_, .f32⟩) main_call1_cst) (constant S_ .f32 0xFF800000#32),
    TRef.binary (TRef.of (T := ⟨S100000x64, .f32⟩) main_v50) (TRef.of (T := ⟨S_, .f32⟩) main_call1_cst) (TRef.of (T := ⟨S100000, .f32⟩) main_call1_v0) (fun x v => Host.reduce FloatOps.maximumf x v reducesTo_S100000x64_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x64, .f32⟩) main_call1_v4) (broadcastInDim S100000x64 ![0, 1] bcast_S100000x1_S100000x64_0_1),
    TRef.binary (TRef.of (T := ⟨S100000x64, .f32⟩) main_v50) (TRef.of (T := ⟨S100000x64, .f32⟩) main_call1_v4) (TRef.of (T := ⟨S100000x64, .f32⟩) main_call1_v5) subf,
    TRef.unary (TRef.of (T := ⟨S100000x64, .f32⟩) main_call1_v5) (TRef.of (T := ⟨S100000x64, .f32⟩) main_call1_v6) Host.exp,
    TRef.nullary (TRef.of (T := ⟨S_, .f32⟩) main_call1_cst_1) (constant S_ .f32 0x00000000#32),
    TRef.binary (TRef.of (T := ⟨S100000x64, .f32⟩) main_call1_v6) (TRef.of (T := ⟨S_, .f32⟩) main_call1_cst_1) (TRef.of (T := ⟨S100000, .f32⟩) main_call1_v7) (fun x v => Host.reduceAdd x v reducesTo_S100000x64_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x64, .f32⟩) main_call1_v10) (broadcastInDim S100000x64 ![0, 1] bcast_S100000x1_S100000x64_0_1),
    TRef.binary (TRef.of (T := ⟨S100000x64, .f32⟩) main_call1_v5) (TRef.of (T := ⟨S100000x64, .f32⟩) main_call1_v10) (TRef.of (T := ⟨S100000x64, .f32⟩) main_v51) subf ]

/-- @main's 78 operations, in order. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (maximumf : (⟨S100000, .f32⟩ : BufTy).Contents (Elt F) → (⟨S100000, .f32⟩ : BufTy).Contents (Elt F) → (⟨S100000, .f32⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v10 main_v9 main_v11 (Host.divf : (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_arg0 main_v17 main_v18 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_4 (constant S_ .f32 0x00000000#32),
    unary main_cst_4 main_v19 (broadcastInDim S100000x128 ![] bcast_S_S100000x128 : (⟨S_, .f32⟩ : BufTy).Contents (Elt F) → (⟨S100000x128, .f32⟩ : BufTy).Contents (Elt F)),
    unary main_v3 main_v20 (broadcastInDim S1600000x1 ![0] bcast_S1600000_S1600000x1_0 : (⟨S1600000, .i32⟩ : BufTy).Contents (Elt F) → (⟨S1600000x1, .i32⟩ : BufTy).Contents (Elt F)),
    ternary main_v19 main_v20 main_v18 main_v21 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v11 main_v22 (broadcastInDim S100000x1 ![0] bcast_S100000_S100000x1_0 : (⟨S100000, .f32⟩ : BufTy).Contents (Elt F) → (⟨S100000x1, .f32⟩ : BufTy).Contents (Elt F)),
    unary main_v22 main_v23 (broadcastInDim S100000x128 ![0, 1] bcast_S100000x1_S100000x128_0_1 : (⟨S100000x1, .f32⟩ : BufTy).Contents (Elt F) → (⟨S100000x128, .f32⟩ : BufTy).Contents (Elt F)),
    binary main_v21 main_v23 main_v24 (mulf : (⟨S100000x128, .f32⟩ : BufTy).Contents (Elt F) → (⟨S100000x128, .f32⟩ : BufTy).Contents (Elt F) → (⟨S100000x128, .f32⟩ : BufTy).Contents (Elt F)),
    binary main_v24 main_arg2 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_arg0 main_arg3 main_v26 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v25 main_v26 main_v27 (addf : (⟨S100000x128, .f32⟩ : BufTy).Contents (Elt F) → (⟨S100000x128, .f32⟩ : BufTy).Contents (Elt F) → (⟨S100000x128, .f32⟩ : BufTy).Contents (Elt F)),
    unary main_arg4 main_v28 (broadcastInDim S1x128 ![1] bcast_S128_S1x128_1 : (⟨S128, .f32⟩ : BufTy).Contents (Elt F) → (⟨S1x128, .f32⟩ : BufTy).Contents (Elt F)),
    unary main_v28 main_v29 (broadcastInDim S100000x128 ![0, 1] bcast_S1x128_S100000x128_0_1 : (⟨S1x128, .f32⟩ : BufTy).Contents (Elt F) → (⟨S100000x128, .f32⟩ : BufTy).Contents (Elt F)),
    binary main_v27 main_v29 main_v30 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v30) (TRef.of (T := ⟨S100000x128, .f32⟩) main_call0_v0) (TRef.of (T := ⟨S100000x128, .f32⟩) main_v31) maximumf,
    nullary main_c_5 (constantI S_ 32 0#32),
    unary main_c_5 main_v32 (broadcastInDim S1600000 ![] bcast_S_S1600000 : (⟨S_, .i32⟩ : BufTy).Contents (Elt F) → (⟨S1600000, .i32⟩ : BufTy).Contents (Elt F)),
    binary main_v1 main_v32 main_v33 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v34 (broadcastInDim S1600000 ![] bcast_S_S1600000 : (⟨S_, .i32⟩ : BufTy).Contents (Elt F) → (⟨S1600000, .i32⟩ : BufTy).Contents (Elt F)),
    binary main_v1 main_v34 main_v35 (addi : (⟨S1600000, .i32⟩ : BufTy).Contents (Elt F) → (⟨S1600000, .i32⟩ : BufTy).Contents (Elt F) → (⟨S1600000, .i32⟩ : BufTy).Contents (Elt F)),
    ternary main_v33 main_v35 main_v1 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v36 main_v37 (broadcastInDim S1600000x1 ![0] bcast_S1600000_S1600000x1_0 : (⟨S1600000, .i32⟩ : BufTy).Contents (Elt F) → (⟨S1600000x1, .i32⟩ : BufTy).Contents (Elt F)),
    binary main_v31 main_v37 main_v38 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v39 (broadcastInDim S100000x128 ![] bcast_S_S100000x128 : (⟨S_, .f32⟩ : BufTy).Contents (Elt F) → (⟨S100000x128, .f32⟩ : BufTy).Contents (Elt F)),
    unary main_v3 main_v40 (broadcastInDim S1600000x1 ![0] bcast_S1600000_S1600000x1_0 : (⟨S1600000, .i32⟩ : BufTy).Contents (Elt F) → (⟨S1600000x1, .i32⟩ : BufTy).Contents (Elt F)),
    ternary main_v39 main_v40 main_v38 main_v41 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v11 main_v42 (broadcastInDim S100000x1 ![0] bcast_S100000_S100000x1_0 : (⟨S100000, .f32⟩ : BufTy).Contents (Elt F) → (⟨S100000x1, .f32⟩ : BufTy).Contents (Elt F)),
    unary main_v42 main_v43 (broadcastInDim S100000x128 ![0, 1] bcast_S100000x1_S100000x128_0_1 : (⟨S100000x1, .f32⟩ : BufTy).Contents (Elt F) → (⟨S100000x128, .f32⟩ : BufTy).Contents (Elt F)),
    binary main_v41 main_v43 main_v44 (mulf : (⟨S100000x128, .f32⟩ : BufTy).Contents (Elt F) → (⟨S100000x128, .f32⟩ : BufTy).Contents (Elt F) → (⟨S100000x128, .f32⟩ : BufTy).Contents (Elt F)),
    binary main_v44 main_arg5 main_v45 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v31 main_arg6 main_v46 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v45 main_v46 main_v47 (addf : (⟨S100000x64, .f32⟩ : BufTy).Contents (Elt F) → (⟨S100000x64, .f32⟩ : BufTy).Contents (Elt F) → (⟨S100000x64, .f32⟩ : BufTy).Contents (Elt F)),
    unary main_arg7 main_v48 (broadcastInDim S1x64 ![1] bcast_S64_S1x64_1 : (⟨S64, .f32⟩ : BufTy).Contents (Elt F) → (⟨S1x64, .f32⟩ : BufTy).Contents (Elt F)),
    unary main_v48 main_v49 (broadcastInDim S100000x64 ![0, 1] bcast_S1x64_S100000x64_0_1 : (⟨S1x64, .f32⟩ : BufTy).Contents (Elt F) → (⟨S100000x64, .f32⟩ : BufTy).Contents (Elt F)),
    binary main_v47 main_v49 main_v50 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0xFF800000#32),
    TRef.binary (TRef.of (T := ⟨S100000x64, .f32⟩) main_v50) (TRef.of (T := ⟨S_, .f32⟩) main_call1_cst) (TRef.of (T := ⟨S100000, .f32⟩) main_call1_v0) (fun x v => Host.reduce FloatOps.maximumf x v reducesTo_S100000x64_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x64, .f32⟩) main_call1_v4) (broadcastInDim S100000x64 ![0, 1] bcast_S100000x1_S100000x64_0_1),
    TRef.binary (TRef.of (T := ⟨S100000x64, .f32⟩) main_v50) (TRef.of (T := ⟨S100000x64, .f32⟩) main_call1_v4) (TRef.of (T := ⟨S100000x64, .f32⟩) main_call1_v5) subf,
    TRef.unary (TRef.of (T := ⟨S100000x64, .f32⟩) main_call1_v5) (TRef.of (T := ⟨S100000x64, .f32⟩) main_call1_v6) Host.exp,
    TRef.nullary (TRef.of (T := ⟨S_, .f32⟩) main_call1_cst_1) (constant S_ .f32 0x00000000#32),
    TRef.binary (TRef.of (T := ⟨S100000x64, .f32⟩) main_call1_v6) (TRef.of (T := ⟨S_, .f32⟩) main_call1_cst_1) (TRef.of (T := ⟨S100000, .f32⟩) main_call1_v7) (fun x v => Host.reduceAdd x v reducesTo_S100000x64_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x64, .f32⟩) main_call1_v10) (broadcastInDim S100000x64 ![0, 1] bcast_S100000x1_S100000x64_0_1),
    TRef.binary (TRef.of (T := ⟨S100000x64, .f32⟩) main_call1_v5) (TRef.of (T := ⟨S100000x64, .f32⟩) main_call1_v10) (TRef.of (T := ⟨S100000x64, .f32⟩) main_v51) subf ]

theorem ops_split : (ops : List (HloOp τ sig (Elt F))) = opsA ++ (opsB ++ opsC) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

end Cert.ReferenceIdeal.HandRun

end
-- ==== Proof.RefHead.lean ====
/-
  THE FIRST 41 OPERATIONS of the reference, from any buffer contents: the first layer's output buffer ends at the
  specification's first layer of the arguments, three small buffers at the edges' sources, their destinations and
  the per-node factor, and the last three arguments are untouched. The gather, the scatter-add and the host's
  division stay folded: the equations never look inside them.
-/
import proofs.«132819_j73521250173079_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.Sage

variable {F : FTy → Type} [FloatOps F]

attribute [local irreducible] Host.gather Host.scatterAdd Host.reduce Host.reduceAdd Host.divf Host.exp Host.log

/-! ## The first 41 operations -/

set_option maxRecDepth 16384 in
/-- The first layer's output buffer holds the first layer of the arguments. -/
theorem headA_hidden (V : Valuation τ sig (Elt F)) :
    after opsA V (Proc.devRef .tc main_v31)
      = hiddenOf (V (Proc.devRef .tc main_arg0)) (V (Proc.devRef .tc main_arg1)) (V (Proc.devRef .tc main_arg2))
          (V (Proc.devRef .tc main_arg3)) (V (Proc.devRef .tc main_arg4)) := by
  simp only [after_cons, after_nil]
  rfl

set_option maxRecDepth 16384 in
theorem headA_src (V : Valuation τ sig (Elt F)) :
    after opsA V (Proc.devRef .tc main_v1) = srcOf (V (Proc.devRef .tc main_arg1)) := by
  simp only [after_cons, after_nil]
  rfl

set_option maxRecDepth 16384 in
theorem headA_dst (V : Valuation τ sig (Elt F)) :
    after opsA V (Proc.devRef .tc main_v3) = dstOf (V (Proc.devRef .tc main_arg1)) := by
  simp only [after_cons, after_nil]
  rfl

set_option maxRecDepth 16384 in
theorem headA_invDeg (V : Valuation τ sig (Elt F)) :
    after opsA V (Proc.devRef .tc main_v11) = invDegOf (dstOf (V (Proc.devRef .tc main_arg1))) := by
  simp only [after_cons, after_nil]
  rfl

set_option maxRecDepth 16384 in
theorem headA_arg5 (V : Valuation τ sig (Elt F)) :
    after opsA V (Proc.devRef .tc main_arg5) = V (Proc.devRef .tc main_arg5) := by
  simp only [after_cons, after_nil]
  rfl
set_option maxRecDepth 16384 in
theorem headA_arg6 (V : Valuation τ sig (Elt F)) :
    after opsA V (Proc.devRef .tc main_arg6) = V (Proc.devRef .tc main_arg6) := by
  simp only [after_cons, after_nil]
  rfl
set_option maxRecDepth 16384 in
theorem headA_arg7 (V : Valuation τ sig (Elt F)) :
    after opsA V (Proc.devRef .tc main_arg7) = V (Proc.devRef .tc main_arg7) := by
  simp only [after_cons, after_nil]
  rfl

end Cert.ReferenceIdeal.HandRun

end
-- ==== Proof.RefTail.lean ====
/-
  THE REFERENCE'S LAST 37 OPERATIONS, from any buffer contents: 22 leave in the logits buffer the second layer's
  logits of what four earlier buffers and the last three arguments hold; 15 leave in the result buffer the row-wise
  log-softmax of what the logits buffer holds. The gather, the scatter-add and the host's exponential, logarithm and
  sum stay folded. The last 15 are read for an ARBITRARY per-row reduction `R` in place of the row maximum — the
  equation is the same whatever that reduction computes — and `R` is the row maximum at the end.
-/
import proofs.«132819_j73521250173079_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.Sage

variable {F : FTy → Type} [FloatOps F]

attribute [local irreducible] Host.gather Host.scatterAdd Host.reduce Host.reduceAdd Host.divf Host.exp Host.log

/-! ## The next 22 operations -/

set_option maxRecDepth 16384 in
/-- From any contents `W`, the logits buffer ends at the second layer's logits of: the aggregation of what the first
    layer's output buffer holds over the sources, destinations and factors the three small buffers hold; that
    output; and the last three arguments. -/
theorem tailB_logits (W : Valuation τ sig (Elt F)) :
    after opsB W (Proc.devRef .tc main_v50)
      = logitsOf (aggOf (W (Proc.devRef .tc main_v31)) (W (Proc.devRef .tc main_v1)) (W (Proc.devRef .tc main_v3)) (W (Proc.devRef .tc main_v11)))
          (W (Proc.devRef .tc main_v31)) (W (Proc.devRef .tc main_arg5)) (W (Proc.devRef .tc main_arg6)) (W (Proc.devRef .tc main_arg7)) := by
  after_results_simp <;> rfl

/-! ## The last 15, over an arbitrary per-row reduction -/

/-- The last 15 operations with the row maximum replaced by a per-row reduction `R` of the logits and a start value. -/
abbrev opsCOver (R : Out F → (⟨S_, .f32⟩ : BufTy).Contents (Elt F) → PerNode F) : List (HloOp τ sig (Elt F)) :=
  [ TRef.nullary (TRef.of (T := ⟨S_, .f32⟩) main_call1_cst) (constant S_ .f32 0xFF800000#32),
    TRef.binary (TRef.of (T := ⟨S100000x64, .f32⟩) main_v50) (TRef.of (T := ⟨S_, .f32⟩) main_call1_cst) (TRef.of (T := ⟨S100000, .f32⟩) main_call1_v0) R,
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x64, .f32⟩) main_call1_v4) (broadcastInDim S100000x64 ![0, 1] bcast_S100000x1_S100000x64_0_1),
    TRef.binary (TRef.of (T := ⟨S100000x64, .f32⟩) main_v50) (TRef.of (T := ⟨S100000x64, .f32⟩) main_call1_v4) (TRef.of (T := ⟨S100000x64, .f32⟩) main_call1_v5) subf,
    TRef.unary (TRef.of (T := ⟨S100000x64, .f32⟩) main_call1_v5) (TRef.of (T := ⟨S100000x64, .f32⟩) main_call1_v6) Host.exp,
    TRef.nullary (TRef.of (T := ⟨S_, .f32⟩) main_call1_cst_1) (constant S_ .f32 0x00000000#32),
    TRef.binary (TRef.of (T := ⟨S100000x64, .f32⟩) main_call1_v6) (TRef.of (T := ⟨S_, .f32⟩) main_call1_cst_1) (TRef.of (T := ⟨S100000, .f32⟩) main_call1_v7) (fun x v => Host.reduceAdd x v reducesTo_S100000x64_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x64, .f32⟩) main_call1_v10) (broadcastInDim S100000x64 ![0, 1] bcast_S100000x1_S100000x64_0_1),
    TRef.binary (TRef.of (T := ⟨S100000x64, .f32⟩) main_call1_v5) (TRef.of (T := ⟨S100000x64, .f32⟩) main_call1_v10) (TRef.of (T := ⟨S100000x64, .f32⟩) main_v51) subf ]

/-- The row-wise formula over `R`: with `z = y - spread (max (-∞) (R y (-∞)))`, the result `z - spread (log (sum_j exp z))`. -/
def softOver (R : Out F → (⟨S_, .f32⟩ : BufTy).Contents (Elt F) → PerNode F) (y : Out F) : Out F :=
  subf
    (subf y
      (broadcastInDim S100000x64 ![0, 1] bcast_S100000x1_S100000x64_0_1
        (broadcastInDim S100000x1 ![0] bcast_S100000_S100000x1_0
          (maximumf (broadcastInDim S100000 ![] bcast_S_S100000 (constant S_ .f32 0xFF800000#32)) (R y (constant S_ .f32 0xFF800000#32))))))
    (broadcastInDim S100000x64 ![0, 1] bcast_S100000x1_S100000x64_0_1
      (Host.log
        (broadcastInDim S100000x1 ![0] bcast_S100000_S100000x1_0
          (Host.reduceAdd
            (Host.exp
              (subf y
                (broadcastInDim S100000x64 ![0, 1] bcast_S100000x1_S100000x64_0_1
                  (broadcastInDim S100000x1 ![0] bcast_S100000_S100000x1_0
                    (maximumf (broadcastInDim S100000 ![] bcast_S_S100000 (constant S_ .f32 0xFF800000#32)) (R y (constant S_ .f32 0xFF800000#32)))))))
            (constant S_ .f32 0x00000000#32) reducesTo_S100000x64_S100000_d1 h_S_))))

set_option maxRecDepth 16384 in
theorem tailC_over (R : Out F → (⟨S_, .f32⟩ : BufTy).Contents (Elt F) → PerNode F) (W : Valuation τ sig (Elt F)) :
    after (opsCOver R) W (Proc.devRef .tc main_v51) = softOver R (W (Proc.devRef .tc main_v50)) := by
  after_results_simp <;> rfl

/-- The program's last 15 operations are those, at the row maximum. -/
theorem opsC_eq : (opsC : List (HloOp τ sig (Elt F)))
    = opsCOver (fun x v => Host.reduce FloatOps.maximumf x v reducesTo_S100000x64_S100000_d1 h_S_) := rfl

/-- At the row maximum the formula is the specification's row-wise log-softmax. -/
theorem softOver_rowMax (y : Out F) :
    softOver (fun x v => Host.reduce FloatOps.maximumf x v reducesTo_S100000x64_S100000_d1 h_S_) y = logSoftmaxOf y := rfl

/-- From any contents `W`, the result buffer ends at the row-wise log-softmax of what the logits buffer holds. -/
theorem tailC_result (W : Valuation τ sig (Elt F)) :
    after opsC W (Proc.devRef .tc main_v51) = logSoftmaxOf (W (Proc.devRef .tc main_v50)) := by
  rw [opsC_eq]
  exact (tailC_over _ W).trans (softOver_rowMax _)

end Cert.ReferenceIdeal.HandRun

end
-- ==== Proof.RefRun.lean ====
/-
  THE REFERENCE'S RUN, read back as the specification.

  Every weakly fair execution of a straight line of host operations terminates with each buffer at the fold of the
  operations' results over the launch contents. Read in three steps (the first 41 operations, the next 22, the last
  15) that fold leaves in the result buffer the network of the arguments, and no operation writes an argument.
-/
import proofs.«132819_j73521250173079_1_alg».proof.Proof.RefHead
import proofs.«132819_j73521250173079_1_alg».proof.Proof.RefTail
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.Sage

variable {F : FTy → Type} [FloatOps F]

/-! ## The whole line -/

/-- The result buffer after all 78 operations holds the network of the arguments. -/
theorem result_eq (V : Valuation τ sig (Elt F)) :
    after ops V (Proc.devRef .tc main_v51)
      = net (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  rw [ops_split, StableHlo.after_append, StableHlo.after_append, tailC_result, tailB_logits, headA_hidden, headA_src, headA_dst, headA_invDeg,
    headA_arg5, headA_arg6, headA_arg7]
  rfl

theorem kept_arg0 (V : Valuation τ sig (Elt F)) :
    after ops V (Proc.devRef .tc main_arg0) = V (Proc.devRef .tc main_arg0) := by
  after_results_simp <;> rfl
theorem kept_arg1 (V : Valuation τ sig (Elt F)) :
    after ops V (Proc.devRef .tc main_arg1) = V (Proc.devRef .tc main_arg1) := by
  after_results_simp <;> rfl
theorem kept_arg2 (V : Valuation τ sig (Elt F)) :
    after ops V (Proc.devRef .tc main_arg2) = V (Proc.devRef .tc main_arg2) := by
  after_results_simp <;> rfl
theorem kept_arg3 (V : Valuation τ sig (Elt F)) :
    after ops V (Proc.devRef .tc main_arg3) = V (Proc.devRef .tc main_arg3) := by
  after_results_simp <;> rfl
theorem kept_arg4 (V : Valuation τ sig (Elt F)) :
    after ops V (Proc.devRef .tc main_arg4) = V (Proc.devRef .tc main_arg4) := by
  after_results_simp <;> rfl
theorem kept_arg5 (V : Valuation τ sig (Elt F)) :
    after ops V (Proc.devRef .tc main_arg5) = V (Proc.devRef .tc main_arg5) := by
  after_results_simp <;> rfl
theorem kept_arg6 (V : Valuation τ sig (Elt F)) :
    after ops V (Proc.devRef .tc main_arg6) = V (Proc.devRef .tc main_arg6) := by
  after_results_simp <;> rfl
theorem kept_arg7 (V : Valuation τ sig (Elt F)) :
    after ops V (Proc.devRef .tc main_arg7) = V (Proc.devRef .tc main_arg7) := by
  after_results_simp <;> rfl

/-- On every device, for any float values, from any memory with zero counters: every weakly fair execution of the
    reference terminates with the result array at the network of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
        = net (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v51).trans (result_eq _),
      (h c main_arg0).trans (kept_arg0 _), (h c main_arg1).trans (kept_arg1 _), (h c main_arg2).trans (kept_arg2 _),
      (h c main_arg3).trans (kept_arg3 _), (h c main_arg4).trans (kept_arg4 _), (h c main_arg5).trans (kept_arg5 _),
      (h c main_arg6).trans (kept_arg6 _), (h c main_arg7).trans (kept_arg7 _)⟩)
    (run_seq scopedRefs_eq scopedSems_eq defs main (fun _ => ops) main_eq (fun _ => ops_sub) m ρ)

end Cert.ReferenceIdeal.HandRun

end
-- ==== Proof.lean ====
/- The proof of `Cert.Claim`: a two-layer mean-aggregating graph network computed by two gridded kernels among host
   operations, against the same network computed by host operations alone, equal as extended reals.

   Both programs build the in-degrees, their reciprocals and the two mean aggregations by the SAME host operations on
   the same operands (a gather, a scatter-add, a broadcast product); these are never opened. They differ in the two
   dense layers: the kernel computes `max (A·Wl + X·Wr + b) 0` and the row-wise log-softmax of `A·Wl + H·Wr + b` block
   by block of 5000 rows, its matrix products taking narrowed operands into zero accumulators (the identity, and a plain
   sum, at the extended reals), its row maximum and row sum as lane reductions; the reference computes them on whole
   arrays, with one more maximum against `-∞`. Entry by entry both are the same sums, the same fold of `max` from
   `-∞`, the same `exp` and `log`: no law of the extended reals beyond `-∞ ⊔ x = x` and `0 + s = s` is used, and the
   precondition (finite inputs) is never opened.

   Proof/Spec.lean states the network as one function of the eight arguments; Proof/SpecRead.lean reads its two layers
   at an entry; Proof/RefOps, RefHead, RefTail, RefRun: the reference's run ends at it; Proof/KernelRun, HostGlue,
   Layer1, Layer2, KernelValue: so does the idealized kernel's. The three frames are the programs' runs with the
   result dropped; nothing was idealized away, so `preserves` has no conjunct. -/
import proofs.«132819_j73521250173079_1_alg».proof.Defs
import proofs.«132819_j73521250173079_1_alg».proof.Proof.KernelValue
import proofs.«132819_j73521250173079_1_alg».proof.Proof.RefRun
import proofs.«132819_j73521250173079_1_alg».proof.Proof.Gen.Kernel
import proofs.«132819_j73521250173079_1_alg».proof.Proof.Gen.Kernel.Skeleton
import proofs.«132819_j73521250173079_1_alg».proof.Proof.Gen.Kernel.Launch
import proofs.«132819_j73521250173079_1_alg».proof.Proof.Gen.Kernel.Points
import proofs.«132819_j73521250173079_1_alg».proof.Proof.Gen.Kernel.Frame
import proofs.«132819_j73521250173079_1_alg».proof.Proof.Gen.KernelIdeal
import proofs.«132819_j73521250173079_1_alg».proof.Proof.Gen.KernelIdeal.Skeleton
import proofs.«132819_j73521250173079_1_alg».proof.Proof.Gen.KernelIdeal.Launch
import proofs.«132819_j73521250173079_1_alg».proof.Proof.Gen.KernelIdeal.Points
import proofs.«132819_j73521250173079_1_alg».proof.Proof.Gen.KernelIdeal.Frame
import proofs.«132819_j73521250173079_1_alg».proof.Proof.Gen.ReferenceIdeal
import proofs.«132819_j73521250173079_1_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- Both runs end with the result array at the network of their arguments, and the arguments agree. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.KernelValue.run m ρ, ?_⟩
  refine (θ_run Cert.ReferenceIdeal.defs _ _).mono (fun _ h c => ⟨(h c).1.trans ?_, (h c).2⟩)
    (Cert.ReferenceIdeal.HandRun.run (F := Ideal) m' ρ')
  obtain ⟨a0, a1, a2, a3, a4, a5, a6, a7⟩ := hagree c
  rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
